-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v27) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S3x64x64 : Shape := ⟨3, ![3, 64, 64]⟩
abbrev S_ : Shape := ⟨0, ![]⟩

class Facts : Prop where
  bcast_S_S3x64x64 : S_.BroadcastsInDim S3x64x64 (![] : Fin 0 → Fin S3x64x64.rank)
  reducesTo_S3x64x64_S_d0_1_2 : S3x64x64.ReducesTo [0, 1, 2] S_
  h_S_ : 0 < S_.numel

variable [Facts]

def fn {F : FTy → Type} [FloatOps F] (main_arg0 : FVec F S3x64x64 .f32) : IVec S_ 1 :=
  let main_v0 : FVec F S3x64x64 .f32 := Host.absf main_arg0
  let main_cst : FVec F S_ .f32 := constant S_ .f32 0x7F800000#32
  let main_v1 : FVec F S3x64x64 .f32 := broadcastInDim S3x64x64 ![] bcast_S_S3x64x64 main_cst
  let main_v2 : IVec S3x64x64 1 := cmpf .olt main_v0 main_v1
  let main_c : IVec S_ 1 := constantI S_ 1 1#1
  let main_v3 : IVec S_ 1 := (fun x v => Host.reduce IntOp.andi x v reducesTo_S3x64x64_S_d0_1_2 h_S_) main_v2 main_c
  main_v3
-- ==== Kernel.lean ====
abbrev S3x64x64 : Shape := ⟨3, ![3, 64, 64]⟩
abbrev S_ : Shape := ⟨0, ![]⟩
abbrev S12288 : Shape := ⟨1, ![12288]⟩
abbrev S12288x1 : Shape := ⟨2, ![12288, 1]⟩
abbrev S12288x2 : Shape := ⟨2, ![12288, 2]⟩
abbrev S1x12288 : Shape := ⟨2, ![1, 12288]⟩
abbrev S12289x12288 : Shape := ⟨2, ![12289, 12288]⟩
abbrev S1x2048 : Shape := ⟨2, ![1, 2048]⟩
abbrev S256x2048 : Shape := ⟨2, ![256, 2048]⟩
abbrev S12289x3x64x64 : Shape := ⟨4, ![12289, 3, 64, 64]⟩

abbrev nBuf : Space → Nat
  | .hbm => 73
  | .vmem => 8
  | .smem => 0
  | _ => 0

abbrev bufTy : (tb : Table) → Fin (tcTables nBuf tb) → BufTy
  | .hbm, ⟨0, _⟩ => ⟨S3x64x64, .f32⟩
  | .hbm, ⟨1, _⟩ => ⟨S_, .f32⟩
  | .hbm, ⟨2, _⟩ => ⟨S3x64x64, .f32⟩
  | .hbm, ⟨3, _⟩ => ⟨S3x64x64, .f32⟩
  | .hbm, ⟨4, _⟩ => ⟨S_, .f32⟩
  | .hbm, ⟨5, _⟩ => ⟨S3x64x64, .f32⟩
  | .hbm, ⟨6, _⟩ => ⟨S3x64x64, .f32⟩
  | .hbm, ⟨7, _⟩ => ⟨S_, .f32⟩
  | .hbm, ⟨8, _⟩ => ⟨S3x64x64, .f32⟩
  | .hbm, ⟨9, _⟩ => ⟨S3x64x64, .f32⟩
  | .hbm, ⟨10, _⟩ => ⟨S_, .f32⟩
  | .hbm, ⟨11, _⟩ => ⟨S3x64x64, .f32⟩
  | .hbm, ⟨12, _⟩ => ⟨S3x64x64, .f32⟩
  | .hbm, ⟨13, _⟩ => ⟨S_, .f32⟩
  | .hbm, ⟨14, _⟩ => ⟨S3x64x64, .f32⟩
  | .hbm, ⟨15, _⟩ => ⟨S3x64x64, .f32⟩
  | .hbm, ⟨16, _⟩ => ⟨S_, .f32⟩
  | .hbm, ⟨17, _⟩ => ⟨S3x64x64, .f32⟩
  | .hbm, ⟨18, _⟩ => ⟨S3x64x64, .f32⟩
  | .hbm, ⟨19, _⟩ => ⟨S3x64x64, .f32⟩
  | .hbm, ⟨20, _⟩ => ⟨S3x64x64, .f32⟩
  | .hbm, ⟨21, _⟩ => ⟨S_, .f32⟩
  | .hbm, ⟨22, _⟩ => ⟨S3x64x64, .f32⟩
  | .hbm, ⟨23, _⟩ => ⟨S3x64x64, .f32⟩
  | .hbm, ⟨24, _⟩ => ⟨S3x64x64, .f32⟩
  | .hbm, ⟨25, _⟩ => ⟨S12288, .f32⟩
  | .hbm, ⟨26, _⟩ => ⟨S_, .f32⟩
  | .hbm, ⟨27, _⟩ => ⟨S12288, .f32⟩
  | .hbm, ⟨28, _⟩ => ⟨S12288, .i1⟩
  | .hbm, ⟨29, _⟩ => ⟨S12288, .i32⟩
  | .hbm, ⟨30, _⟩ => ⟨S_, .i32⟩
  | .hbm, ⟨31, _⟩ => ⟨S_, .i32⟩
  | .hbm, ⟨32, _⟩ => ⟨S12288, .i32⟩
  | .hbm, ⟨33, _⟩ => ⟨S_, .i32⟩
  | .hbm, ⟨34, _⟩ => ⟨S_, .i32⟩
  | .hbm, ⟨35, _⟩ => ⟨S12288, .i32⟩
  | .hbm, ⟨36, _⟩ => ⟨S12288, .i32⟩
  | .hbm, ⟨37, _⟩ => ⟨S12288, .i32⟩
  | .hbm, ⟨38, _⟩ => ⟨S_, .i32⟩
  | .hbm, ⟨39, _⟩ => ⟨S_, .i32⟩
  | .hbm, ⟨40, _⟩ => ⟨S12288, .i32⟩
  | .hbm, ⟨41, _⟩ => ⟨S12288, .i32⟩
  | .hbm, ⟨42, _⟩ => ⟨S12288, .i32⟩
  | .hbm, ⟨43, _⟩ => ⟨S_, .i32⟩
  | .hbm, ⟨44, _⟩ => ⟨S12288, .i32⟩
  | .hbm, ⟨45, _⟩ => ⟨S12288, .i1⟩
  | .hbm, ⟨46, _⟩ => ⟨S12288, .i32⟩
  | .hbm, ⟨47, _⟩ => ⟨S12288, .i32⟩
  | .hbm, ⟨48, _⟩ => ⟨S_, .i32⟩
  | .hbm, ⟨49, _⟩ => ⟨S12288, .i32⟩
  | .hbm, ⟨50, _⟩ => ⟨S12288, .i1⟩
  | .hbm, ⟨51, _⟩ => ⟨S12288, .i1⟩
  | .hbm, ⟨52, _⟩ => ⟨S_, .i32⟩
  | .hbm, ⟨53, _⟩ => ⟨S12288, .i32⟩
  | .hbm, ⟨54, _⟩ => ⟨S12288, .i32⟩
  | .hbm, ⟨55, _⟩ => ⟨S12288, .i32⟩
  | .hbm, ⟨56, _⟩ => ⟨S_, .i32⟩
  | .hbm, ⟨57, _⟩ => ⟨S_, .i32⟩
  | .hbm, ⟨58, _⟩ => ⟨S12288, .i32⟩
  | .hbm, ⟨59, _⟩ => ⟨S12288, .i32⟩
  | .hbm, ⟨60, _⟩ => ⟨S_, .i32⟩
  | .hbm, ⟨61, _⟩ => ⟨S_, .i32⟩
  | .hbm, ⟨62, _⟩ => ⟨S12288, .i32⟩
  | .hbm, ⟨63, _⟩ => ⟨S12288, .i32⟩
  | .hbm, ⟨64, _⟩ => ⟨S12288x1, .i32⟩
  | .hbm, ⟨65, _⟩ => ⟨S12288x1, .i32⟩
  | .hbm, ⟨66, _⟩ => ⟨S12288x2, .i32⟩
  | .hbm, ⟨67, _⟩ => ⟨S12288, .f32⟩
  | .hbm, ⟨68, _⟩ => ⟨S1x12288, .f32⟩
  | .hbm, ⟨69, _⟩ => ⟨S1x12288, .f32⟩
  | .hbm, ⟨70, _⟩ => ⟨S1x12288, .i32⟩
  | .hbm, ⟨71, _⟩ => ⟨S12289x12288, .f32⟩
  | .hbm, ⟨72, _⟩ => ⟨S12289x3x64x64, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .i32⟩
  | .local _ .vmem, ⟨5, _⟩ => ⟨S1x2048, .i32⟩
  | .local _ .vmem, ⟨6, _⟩ => ⟨S256x2048, .f32⟩
  | .local _ .vmem, ⟨7, _⟩ => ⟨S256x2048, .f32⟩
  | _, _ => ⟨S3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call2_call0_c : Ref sig .tc := ⟨.hbm, 30, rfl⟩
abbrev main_call2_call0_v0 : Ref sig .tc := ⟨.hbm, 31, rfl⟩
abbrev main_v19 : Ref sig .tc := ⟨.hbm, 32, rfl⟩
abbrev main_c : Ref sig .tc := ⟨.hbm, 33, rfl⟩
abbrev main_call3_v0 : Ref sig .tc := ⟨.hbm, 34, rfl⟩
abbrev main_call3_v1 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_call4_v0 : Ref sig .tc := ⟨.hbm, 39, rfl⟩
abbrev main_call4_v1 : Ref sig .tc := ⟨.hbm, 40, rfl⟩
abbrev main_call4_v2 : Ref sig .tc := ⟨.hbm, 41, rfl⟩
abbrev main_call4_v3 : Ref sig .tc := ⟨.hbm, 42, rfl⟩
abbrev main_call4_v4 : Ref sig .tc := ⟨.hbm, 43, rfl⟩
abbrev main_call4_v5 : Ref sig .tc := ⟨.hbm, 44, rfl⟩
abbrev main_call4_v6 : Ref sig .tc := ⟨.hbm, 45, rfl⟩
abbrev main_call4_v7 : Ref sig .tc := ⟨.hbm, 46, rfl⟩
abbrev main_call4_v8 : Ref sig .tc := ⟨.hbm, 47, rfl⟩
abbrev main_call4_c : Ref sig .tc := ⟨.hbm, 48, rfl⟩
abbrev main_call4_v9 : Ref sig .tc := ⟨.hbm, 49, rfl⟩
abbrev main_call4_v10 : Ref sig .tc := ⟨.hbm, 50, rfl⟩
abbrev main_call4_v11 : Ref sig .tc := ⟨.hbm, 51, rfl⟩
abbrev main_call4_c_0 : Ref sig .tc := ⟨.hbm, 52, rfl⟩
abbrev main_call4_v12 : Ref sig .tc := ⟨.hbm, 53, rfl⟩
abbrev main_call4_v13 : Ref sig .tc := ⟨.hbm, 54, rfl⟩
abbrev main_v22 : Ref sig .tc := ⟨.hbm, 55, rfl⟩
abbrev main_c_6 : Ref sig .tc := ⟨.hbm, 56, rfl⟩
abbrev main_call5_v0 : Ref sig .tc := ⟨.hbm, 57, rfl⟩
abbrev main_call5_v1 : Ref sig .tc := ⟨.hbm, 58, rfl⟩
abbrev main_v23 : Ref sig .tc := ⟨.hbm, 59, rfl⟩
abbrev main_c_7 : Ref sig .tc := ⟨.hbm, 60, rfl⟩
abbrev main_call6_v0 : Ref sig .tc := ⟨.hbm, 61, rfl⟩
abbrev main_call6_v1 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 49], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S3x64x64 : S_.BroadcastsInDim S3x64x64 (![] : Fin 0 → Fin S3x64x64.rank)
  shapeCasts_S3x64x64_S12288 : S3x64x64.ShapeCasts S12288
  bcast_S_S12288 : S_.BroadcastsInDim S12288 (![] : Fin 0 → Fin S12288.rank)
  natLt_1_32 : 1 < 32
  bcast_S_S_ : S_.BroadcastsInDim S_ (![] : Fin 0 → Fin S_.rank)
  reduceWindows_S12288_S12288_w12288s1p12287_0 : S12288.ReduceWindows (![12288] : Fin 1 → Nat) ![1] ![12287] ![0] S12288
  h_S_ : 0 < S_.numel
  bcast_S12288_S12288x1_0 : S12288.BroadcastsInDim S12288x1 (![0] : Fin 1 → Fin S12288x1.rank)
  concatenates_S12288x1_S12288x1_S12288x2_d1 : Shape.Concatenates [S12288x1, S12288x1] S12288x2 1
  shapeCasts_S12288_S1x12288 : S12288.ShapeCasts S1x12288
  iota_S256x2048_d0_w32 : S256x2048.Iotas .tc 32 [0]
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S256x2048_S256x2048_0_0 : ∀ a, (![0, 0] : Fin 2 → Nat) a + S256x2048.size a ≤ S256x2048.size a
  h_S256x2048 : 0 < S256x2048.numel
  shapeCasts_S12289x12288_S12289x3x64x64 : S12289x12288.ShapeCasts S12289x3x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x12288.size a
  hwx0_0 : ∀ i : grid0.Coords, EltTy.bits .f32 = 32 ∨ (Rect.block (s := S1x12288) S1x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x12288.size a
  hwx0_1 : ∀ i : grid0.Coords, EltTy.bits .f32 = 32 ∨ (Rect.block (s := S1x12288) S1x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x12288.size a
  hwx0_2 : ∀ i : grid0.Coords, EltTy.bits .i32 = 32 ∨ (Rect.block (s := S1x12288) S1x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x2048.size a < S12289x12288.size a
  hwx0_3 : ∀ i : grid0.Coords, EltTy.bits .f32 = 32 ∨ (Rect.unit (s := S12289x12288) (fun a => cc0_transform_3 i a * S256x2048.size a) (fun a => (Pipeline.Clip.of (cc0_transform_3 i a) (S256x2048.size a) (S12289x12288.size a)).extent (S256x2048.size a)) fun a => Pipeline.Clip.inb (Pipeline.Clip.ok_of (hstart0_3 i a))).WholeWords (EltTy.packing .f32)
  hwxs0_3 : ∀ i : grid0.Coords, EltTy.bits .f32 = 32 ∨ (Rect.unit (s := S256x2048) (fun _ => 0) (fun a => (Pipeline.Clip.of (cc0_transform_3 i a) (S256x2048.size a) (S12289x12288.size a)).extent (S256x2048.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpec (Memref.whole main_v29) S1x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpecClip (Memref.whole main_v32) S256x2048.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S3x64x64 : Shape := ⟨3, ![3, 64, 64]⟩
abbrev S_ : Shape := ⟨0, ![]⟩
abbrev S12288 : Shape := ⟨1, ![12288]⟩
abbrev S12289x12288 : Shape := ⟨2, ![12289, 12288]⟩
abbrev S1 : Shape := ⟨1, ![1]⟩
abbrev S12288x1 : Shape := ⟨2, ![12288, 1]⟩
abbrev S12288x2 : Shape := ⟨2, ![12288, 2]⟩
abbrev S12289x3x64x64 : Shape := ⟨4, ![12289, 3, 64, 64]⟩

abbrev nBuf : Space → Nat
  | .hbm => 92
  | .vmem => 0
  | .smem => 0
  | _ => 0

abbrev bufTy : (tb : Table) → Fin (tcTables nBuf tb) → BufTy
  | .hbm, ⟨0, _⟩ => ⟨S3x64x64, .f32⟩
  | .hbm, ⟨1, _⟩ => ⟨S_, .f32⟩
  | .hbm, ⟨2, _⟩ => ⟨S3x64x64, .f32⟩
  | .hbm, ⟨3, _⟩ => ⟨S3x64x64, .f32⟩
  | .hbm, ⟨4, _⟩ => ⟨S_, .f32⟩
  | .hbm, ⟨5, _⟩ => ⟨S3x64x64, .f32⟩
  | .hbm, ⟨6, _⟩ => ⟨S3x64x64, .f32⟩
  | .hbm, ⟨7, _⟩ => ⟨S_, .f32⟩
  | .hbm, ⟨8, _⟩ => ⟨S3x64x64, .f32⟩
  | .hbm, ⟨9, _⟩ => ⟨S3x64x64, .f32⟩
  | .hbm, ⟨10, _⟩ => ⟨S_, .f32⟩
  | .hbm, ⟨11, _⟩ => ⟨S3x64x64, .f32⟩
  | .hbm, ⟨12, _⟩ => ⟨S3x64x64, .f32⟩
  | .hbm, ⟨13, _⟩ => ⟨S_, .f32⟩
  | .hbm, ⟨14, _⟩ => ⟨S3x64x64, .f32⟩
  | .hbm, ⟨15, _⟩ => ⟨S3x64x64, .f32⟩
  | .hbm, ⟨16, _⟩ => ⟨S_, .f32⟩
  | .hbm, ⟨17, _⟩ => ⟨S3x64x64, .f32⟩
  | .hbm, ⟨18, _⟩ => ⟨S3x64x64, .f32⟩
  | .hbm, ⟨19, _⟩ => ⟨S3x64x64, .f32⟩
  | .hbm, ⟨20, _⟩ => ⟨S3x64x64, .f32⟩
  | .hbm, ⟨21, _⟩ => ⟨S_, .f32⟩
  | .hbm, ⟨22, _⟩ => ⟨S3x64x64, .f32⟩
  | .hbm, ⟨23, _⟩ => ⟨S3x64x64, .f32⟩
  | .hbm, ⟨24, _⟩ => ⟨S3x64x64, .f32⟩
  | .hbm, ⟨25, _⟩ => ⟨S12288, .f32⟩
  | .hbm, ⟨26, _⟩ => ⟨S_, .f32⟩
  | .hbm, ⟨27, _⟩ => ⟨S12288, .f32⟩
  | .hbm, ⟨28, _⟩ => ⟨S12288, .i1⟩
  | .hbm, ⟨29, _⟩ => ⟨S12288, .i32⟩
  | .hbm, ⟨30, _⟩ => ⟨S_, .i32⟩
  | .hbm, ⟨31, _⟩ => ⟨S_, .i32⟩
  | .hbm, ⟨32, _⟩ => ⟨S12288, .i32⟩
  | .hbm, ⟨33, _⟩ => ⟨S_, .i32⟩
  | .hbm, ⟨34, _⟩ => ⟨S_, .i32⟩
  | .hbm, ⟨35, _⟩ => ⟨S12288, .i32⟩
  | .hbm, ⟨36, _⟩ => ⟨S12288, .i32⟩
  | .hbm, ⟨37, _⟩ => ⟨S12288, .i32⟩
  | .hbm, ⟨38, _⟩ => ⟨S_, .f32⟩
  | .hbm, ⟨39, _⟩ => ⟨S12289x12288, .f32⟩
  | .hbm, ⟨40, _⟩ => ⟨S12288, .f32⟩
  | .hbm, ⟨41, _⟩ => ⟨S_, .i32⟩
  | .hbm, ⟨42, _⟩ => ⟨S1, .i32⟩
  | .hbm, ⟨43, _⟩ => ⟨S12289x12288, .f32⟩
  | .hbm, ⟨44, _⟩ => ⟨S_, .i32⟩
  | .hbm, ⟨45, _⟩ => ⟨S12288, .i32⟩
  | .hbm, ⟨46, _⟩ => ⟨S12288, .i1⟩
  | .hbm, ⟨47, _⟩ => ⟨S_, .i32⟩
  | .hbm, ⟨48, _⟩ => ⟨S12288, .i32⟩
  | .hbm, ⟨49, _⟩ => ⟨S12288, .i32⟩
  | .hbm, ⟨50, _⟩ => ⟨S12288, .i32⟩
  | .hbm, ⟨51, _⟩ => ⟨S_, .i32⟩
  | .hbm, ⟨52, _⟩ => ⟨S12288, .i32⟩
  | .hbm, ⟨53, _⟩ => ⟨S12288, .i1⟩
  | .hbm, ⟨54, _⟩ => ⟨S_, .i32⟩
  | .hbm, ⟨55, _⟩ => ⟨S12288, .i32⟩
  | .hbm, ⟨56, _⟩ => ⟨S12288, .i32⟩
  | .hbm, ⟨57, _⟩ => ⟨S12288, .i32⟩
  | .hbm, ⟨58, _⟩ => ⟨S12288x1, .i32⟩
  | .hbm, ⟨59, _⟩ => ⟨S12288x1, .i32⟩
  | .hbm, ⟨60, _⟩ => ⟨S12288x2, .i32⟩
  | .hbm, ⟨61, _⟩ => ⟨S12289x12288, .f32⟩
  | .hbm, ⟨62, _⟩ => ⟨S12289x3x64x64, .f32⟩
  | .hbm, ⟨63, _⟩ => ⟨S_, .i32⟩
  | .hbm, ⟨64, _⟩ => ⟨S_, .i32⟩
  | .hbm, ⟨65, _⟩ => ⟨S12288, .i32⟩
  | .hbm, ⟨66, _⟩ => ⟨S12288, .i32⟩
  | .hbm, ⟨67, _⟩ => ⟨S12288, .i32⟩
  | .hbm, ⟨68, _⟩ => ⟨S_, .i32⟩
  | .hbm, ⟨69, _⟩ => ⟨S12288, .i32⟩
  | .hbm, ⟨70, _⟩ => ⟨S12288, .i1⟩
  | .hbm, ⟨71, _⟩ => ⟨S12288, .i32⟩
  | .hbm, ⟨72, _⟩ => ⟨S12288, .i32⟩
  | .hbm, ⟨73, _⟩ => ⟨S_, .i32⟩
  | .hbm, ⟨74, _⟩ => ⟨S12288, .i32⟩
  | .hbm, ⟨75, _⟩ => ⟨S12288, .i1⟩
  | .hbm, ⟨76, _⟩ => ⟨S12288, .i1⟩
  | .hbm, ⟨77, _⟩ => ⟨S_, .i32⟩
  | .hbm, ⟨78, _⟩ => ⟨S12288, .i32⟩
  | .hbm, ⟨79, _⟩ => ⟨S12288, .i32⟩
  | .hbm, ⟨80, _⟩ => ⟨S12288, .i32⟩
  | .hbm, ⟨81, _⟩ => ⟨S_, .i32⟩
  | .hbm, ⟨82, _⟩ => ⟨S_, .i32⟩
  | .hbm, ⟨83, _⟩ => ⟨S12288, .i32⟩
  | .hbm, ⟨84, _⟩ => ⟨S12288, .i32⟩
  | .hbm, ⟨85, _⟩ => ⟨S_, .i32⟩
  | .hbm, ⟨86, _⟩ => ⟨S_, .i32⟩
  | .hbm, ⟨87, _⟩ => ⟨S12288, .i32⟩
  | .hbm, ⟨88, _⟩ => ⟨S12288, .i32⟩
  | .hbm, ⟨89, _⟩ => ⟨S12288x1, .i32⟩
  | .hbm, ⟨90, _⟩ => ⟨S12288x1, .i32⟩
  | .hbm, ⟨91, _⟩ => ⟨S12288x2, .i32⟩
  | _, _ => ⟨S3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_call0_cst : Ref sig .tc := ⟨.hbm, 4, rfl⟩
abbrev main_call0_v0 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_call1_cst : Ref sig .tc := ⟨.hbm, 13, rfl⟩
abbrev main_call1_v0 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call2_call0_c : Ref sig .tc := ⟨.hbm, 30, rfl⟩
abbrev main_call2_call0_v0 : Ref sig .tc := ⟨.hbm, 31, rfl⟩
abbrev main_v19 : Ref sig .tc := ⟨.hbm, 32, rfl⟩
abbrev main_c : Ref sig .tc := ⟨.hbm, 33, rfl⟩
abbrev main_call3_v0 : Ref sig .tc := ⟨.hbm, 34, rfl⟩
abbrev main_call3_v1 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_c_7 : Ref sig .tc := ⟨.hbm, 44, rfl⟩
abbrev main_v26 : Ref sig .tc := ⟨.hbm, 45, rfl⟩
abbrev main_v27 : Ref sig .tc := ⟨.hbm, 46, rfl⟩
abbrev main_c_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_9 : Ref sig .tc := ⟨.hbm, 51, rfl⟩
abbrev main_v31 : Ref sig .tc := ⟨.hbm, 52, rfl⟩
abbrev main_v32 : Ref sig .tc := ⟨.hbm, 53, rfl⟩
abbrev main_c_10 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_11 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_call4_v5 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_c : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_0 : Ref sig .tc := ⟨.hbm, 77, rfl⟩
abbrev main_call4_v12 : Ref sig .tc := ⟨.hbm, 78, rfl⟩
abbrev main_call4_v13 : Ref sig .tc := ⟨.hbm, 79, rfl⟩
abbrev main_v41 : Ref sig .tc := ⟨.hbm, 80, rfl⟩
abbrev main_c_12 : Ref sig .tc := ⟨.hbm, 81, rfl⟩
abbrev main_call5_v0 : Ref sig .tc := ⟨.hbm, 82, rfl⟩
abbrev main_call5_v1 : Ref sig .tc := ⟨.hbm, 83, rfl⟩
abbrev main_v42 : Ref sig .tc := ⟨.hbm, 84, rfl⟩
abbrev main_c_13 : Ref sig .tc := ⟨.hbm, 85, rfl⟩
abbrev main_call6_v0 : Ref sig .tc := ⟨.hbm, 86, rfl⟩
abbrev main_call6_v1 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩

abbrev nD : Nat := 1
abbrev τ : Topo := Topo.v7x

variable {F : FTy → Type} [FloatOps F]

class Facts₀ : Prop where
  bcast_S_S3x64x64 : S_.BroadcastsInDim S3x64x64 (![] : Fin 0 → Fin S3x64x64.rank)
  shapeCasts_S3x64x64_S12288 : S3x64x64.ShapeCasts S12288
  bcast_S_S12288 : S_.BroadcastsInDim S12288 (![] : Fin 0 → Fin S12288.rank)
  natLt_1_32 : 1 < 32
  bcast_S_S_ : S_.BroadcastsInDim S_ (![] : Fin 0 → Fin S_.rank)
  reduceWindows_S12288_S12288_w12288s1p12287_0 : S12288.ReduceWindows (![12288] : Fin 1 → Nat) ![1] ![12287] ![0] S12288
  h_S_ : 0 < S_.numel
  bcast_S_S12289x12288 : S_.BroadcastsInDim S12289x12288 (![] : Fin 0 → Fin S12289x12288.rank)
  bcast_S_S1 : S_.BroadcastsInDim S1 (![] : Fin 0 → Fin S1.rank)
  bcast_S12288_S12288x1_0 : S12288.BroadcastsInDim S12288x1 (![0] : Fin 1 → Fin S12288x1.rank)
  concatenates_S12288x1_S12288x1_S12288x2_d1 : Shape.Concatenates [S12288x1, S12288x1] S12288x2 1
  shapeCasts_S12289x12288_S12289x3x64x64 : S12289x12288.ShapeCasts S12289x3x64x64
  scatter_S12289x12288_S1_S12288_0_0_0_0_wf : ScatterDims.WF S12289x12288 S1 S12288 [0] [0] [0] 0
  scatter_S12289x12288_S12288x2_S12288_n_01_01_1_wf : ScatterDims.WF S12289x12288 S12288x2 S12288 [] [0, 1] [0, 1] 1

variable [Facts₀]

def scatter_S12289x12288_S1_S12288_0_0_0_0 : ScatterDims S12289x12288 S1 S12288 where
  updateWindowDims := [0]
  insertedWindowDims := [0]
  scatterDimsToOperandDims := [0]
  indexVectorDim := 0
  wf := scatter_S12289x12288_S1_S12288_0_0_0_0_wf
def scatter_S12289x12288_S12288x2_S12288_n_01_01_1 : ScatterDims S12289x12288 S12288x2 S12288 where
  updateWindowDims := []
  insertedWindowDims := [0, 1]
  scatterDimsToOperandDims := [0, 1]
  indexVectorDim := 1
  wf := scatter_S12289x12288_S12288x2_S12288_n_01_01_1_wf

class Facts : Prop extends Facts₀ where

variable [Facts]
-- ==== Proof.Spec.lean ====
/-
  The zonotope table as ONE function of the input image, and the stages that lead to it.

  For an image x of shape [3, 64, 64] (N = 12288 pixels, flattened row-major):
    lo x     = max(0.1 - x, 0) * 0.5,        hi x = max(x - 0.9, 0) * 0.5
    center x = x + lo x - hi x,              err3 x = 0.1 - lo x - hi x
    mask j   = (err j >= 0),                 csum j = number of k <= j with mask k  (a 32-bit word)
    row j    = if mask j then csum j else N + 1
  The table has N + 1 rows and N columns: row 0 is the center, and column j carries err j in row `row j`
  (nowhere when `row j = N + 1`, which is no row of the table); every other entry is zero.
  The second result pairs, per pixel, (row j, channel of j) where the mask holds and (-1, -1) elsewhere.
-/
import Idealize.ShloMosaic.PureOps
import Idealize.ShloMosaic.Lib.ValueIdx

noncomputable section

namespace Cert.Zono

open Idealize.ShloMosaic

abbrev S3x64x64 : Shape := ⟨3, ![3, 64, 64]⟩
abbrev S_ : Shape := ⟨0, ![]⟩
abbrev S1 : Shape := ⟨1, ![1]⟩
abbrev S12288 : Shape := ⟨1, ![12288]⟩
abbrev S12288x1 : Shape := ⟨2, ![12288, 1]⟩
abbrev S12288x2 : Shape := ⟨2, ![12288, 2]⟩
abbrev S1x12288 : Shape := ⟨2, ![1, 12288]⟩
abbrev S12289x12288 : Shape := ⟨2, ![12289, 12288]⟩
abbrev S12289x3x64x64 : Shape := ⟨4, ![12289, 3, 64, 64]⟩

variable {F : FTy → Type} [FloatOps F]

/-- A float word broadcast to the image's shape. -/
def splat3 (w : BitVec 32) : FVec F S3x64x64 .f32 :=
  broadcastInDim S3x64x64 ![] (by decide) (constant S_ .f32 w)

/-- A 32-bit integer word broadcast to a vector of N entries. -/
def splatN (w : BitVec 32) : IVec S12288 32 :=
  broadcastInDim S12288 ![] (by decide) (constantI S_ 32 w)

/-- max(0.1 - x, 0) * 0.5 -/
def lo (x : FVec F S3x64x64 .f32) : FVec F S3x64x64 .f32 :=
  mulf (maximumf (subf (splat3 0x3DCCCCCD#32) x) (splat3 0x00000000#32)) (splat3 0x3F000000#32)

/-- max(x - 0.9, 0) * 0.5 -/
def hi (x : FVec F S3x64x64 .f32) : FVec F S3x64x64 .f32 :=
  mulf (maximumf (subf x (splat3 0x3F666666#32)) (splat3 0x00000000#32)) (splat3 0x3F000000#32)

/-- x + lo x - hi x -/
def center (x : FVec F S3x64x64 .f32) : FVec F S3x64x64 .f32 := subf (addf x (lo x)) (hi x)

/-- 0.1 - lo x - hi x -/
def err3 (x : FVec F S3x64x64 .f32) : FVec F S3x64x64 .f32 := subf (subf (splat3 0x3DCCCCCD#32) (lo x)) (hi x)

/-- The center, flattened. -/
def centerFlat (x : FVec F S3x64x64 .f32) : FVec F S12288 .f32 := shapeCast S12288 (center x) (by decide)

/-- The error coefficients, flattened. -/
def errFlat (x : FVec F S3x64x64 .f32) : FVec F S12288 .f32 := shapeCast S12288 (err3 x) (by decide)

/-- Where the error coefficient is not negative. -/
def mask (x : FVec F S3x64x64 .f32) : IVec S12288 1 :=
  cmpf .oge (errFlat x) (broadcastInDim S12288 ![] (by decide) (constant S_ .f32 0x00000000#32))

/-- The running count of the mask: a window of N entries ending at each position, padded in front. -/
def csum (x : FVec F S3x64x64 .f32) : IVec S12288 32 :=
  Host.reduceWindow IntOp.addi ![12288] ![1] ![12287] ![0] (extui 32 (mask x) (by decide))
    (broadcastInDim S_ ![] (by decide) (constantI S_ 32 0#32)) (by decide) (by decide)

/-- The table's row of each column: the running count where the mask holds, N + 1 elsewhere. -/
def row (x : FVec F S3x64x64 .f32) : IVec S12288 32 := select (mask x) (csum x) (splatN 12289#32)

/-- The pixel's channel: its position divided by 64 * 64, rounded down (the floor-division idiom on signed words). -/
def chan : IVec S12288 32 :=
  let pos : IVec S12288 32 := iotaInDim S12288 32 0
  let d : IVec S_ 32 := constantI S_ 32 4096#32
  let q : IVec S12288 32 := Host.divsi pos (broadcastInDim S12288 ![] (by decide) d)
  let sgn : IVec S12288 1 := cmpi .ne (signi pos) (broadcastInDim S12288 ![] (by decide) (signi d))
  let rem : IVec S12288 1 := cmpi .ne (Host.remsi pos (broadcastInDim S12288 ![] (by decide) d)) (splatN 0#32)
  select (andi sgn rem) (subi q (splatN 1#32)) q

/-- The created terms: (row, channel) where the mask holds, (-1, -1) elsewhere. -/
def terms (x : FVec F S3x64x64 .f32) : IVec S12288x2 32 :=
  concatenate S12288x2 1
    [⟨S12288x1, broadcastInDim S12288x1 ![0] (by decide) (select (mask x) (row x) (splatN 4294967295#32))⟩,
     ⟨S12288x1, broadcastInDim S12288x1 ![0] (by decide) (select (mask x) chan (splatN 4294967295#32))⟩]
    (show Shape.Concatenates [S12288x1, S12288x1] S12288x2 1 by decide)

/-- The table from its three columns' data: the center in row 0, column j's coefficient in row `rw j`, zero elsewhere. -/
def table (cf ef : FVec F S12288 .f32) (rw : IVec S12288 32) : FVec F S12289x12288 .f32 := fun i =>
  if (i 0).val = 0 then cf (ValueIdx.ix1 (i 1))
  else if BitVec.ofNat 32 (i 0).val = rw (ValueIdx.ix1 (i 1)) then ef (ValueIdx.ix1 (i 1))
  else FloatOps.ofBits .f32 0x00000000#32

/-- The scatter that writes one whole row: a single start index (one component, the row), the update's one axis
    running along the columns. -/
def scatRow : ScatterDims S12289x12288 S1 S12288 where
  updateWindowDims := [0]
  insertedWindowDims := [0]
  scatterDimsToOperandDims := [0]
  indexVectorDim := 0

/-- The scatter that writes single entries: one (row, column) pair per update. -/
def scatCell : ScatterDims S12289x12288 S12288x2 S12288 where
  updateWindowDims := []
  insertedWindowDims := [0, 1]
  scatterDimsToOperandDims := [0, 1]
  indexVectorDim := 1

/-- A negative index counted from the end of an axis of extent `n`, any other index as it is. -/
def wrapIdx (n : BitVec 32) (v : IVec S12288 32) : IVec S12288 32 :=
  select (cmpi .slt v (splatN 0#32)) (addi v (splatN n)) v

/-- The table as two scatters into zeros: the center into row 0, then each column's coefficient at (row, column),
    an update whose row is outside the table being dropped. -/
def scatTable (cf ef : FVec F S12288 .f32) (rw : IVec S12288 32) : FVec F S12289x12288 .f32 :=
  Host.scatter scatCell (fun _ b => b)
    (Host.scatter scatRow (fun _ b => b)
      (broadcastInDim S12289x12288 ![] (by decide) (constant S_ .f32 0x00000000#32))
      (broadcastInDim S1 ![] (by decide) (constantI S_ 32 0#32)) cf)
    (concatenate S12288x2 1
      [⟨S12288x1, broadcastInDim S12288x1 ![0] (by decide) (wrapIdx 12289#32 rw)⟩,
       ⟨S12288x1, broadcastInDim S12288x1 ![0] (by decide) (wrapIdx 12288#32 (iotaInDim S12288 32 0))⟩]
      (show Shape.Concatenates [S12288x1, S12288x1] S12288x2 1 by decide))
    ef

/-- The first result: the table of the image, one row per [3, 64, 64] image. -/
def zono (x : FVec F S3x64x64 .f32) : FVec F S12289x3x64x64 .f32 :=
  shapeCast S12289x3x64x64 (table (centerFlat x) (errFlat x) (row x)) (by decide)

end Cert.Zono

end
-- ==== Proof.KernelHostValues.lean ====
/-
  The arrays the region finds: the host operations before the call, read as functions of the input image.

  The three arrays the call stages — the flattened center, the flattened error coefficients and the row words, each
  recast as one row of N entries — and the second result (the created terms), which the call does not touch.
  Each is the composition of the host operations that lead to it; the windowed sum and the concatenation are kept
  closed, only their arguments are compared.
-/
import proofs.«120351_j46454366273939_1_alg».proof.Proof.KernelIdealFrameP
import proofs.«120351_j46454366273939_1_alg».proof.Proof.Spec
import Idealize.ShloMosaic.Lib.StableHlo.Run

noncomputable section

namespace Cert.KernelIdeal.ZonoValue

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ)

attribute [local irreducible] Host.reduceWindow concatenate

/-- The first staged array: the center of the image, as one row. -/
theorem V_center (c : Dev nD) :
    (GenP.V m c main_v29 : S1x12288.Idx → F .f32)
      = shapeCast S1x12288 (Cert.Zono.centerFlat (m ((c : Thread nD τ).loc main_arg0))) (by decide) := by
  dsimp only [GenP.V, GenP.V0]
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  rfl

/-- The second staged array: the error coefficients, as one row. -/
theorem V_err (c : Dev nD) :
    (GenP.V m c main_v30 : S1x12288.Idx → F .f32)
      = shapeCast S1x12288 (Cert.Zono.errFlat (m ((c : Thread nD τ).loc main_arg0))) (by decide) := by
  dsimp only [GenP.V, GenP.V0]
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  rfl

set_option maxHeartbeats 1000000 in
/-- The third staged array: the row words, as one row. -/
theorem V_row (c : Dev nD) :
    (GenP.V m c main_v31 : S1x12288.Idx → BitVec 32)
      = shapeCast S1x12288 (Cert.Zono.row (m ((c : Thread nD τ).loc main_arg0))) (by decide) := by
  dsimp only [GenP.V, GenP.V0]
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  rfl

set_option maxHeartbeats 1000000 in
/-- The second result, written before the call: the created terms. -/
theorem V_terms (c : Dev nD) :
    (GenP.V m c main_v27 : S12288x2.Idx → BitVec 32) = Cert.Zono.terms (m ((c : Thread nD τ).loc main_arg0)) := by
  dsimp only [GenP.V, GenP.V0]
  simp only [hostOps0, hostOps0_1, hostOps0_2, hostOps0_3, hostOps0_4, hostOps0_5, hostOps0_6, hostOps0_7, hostOps0_8, hostOps0_9,
    hostOps0_10, hostOps0_11, hostOps0_12, hostOps0_13, hostOps0_14, List.flatten_cons, List.flatten_nil, List.append_nil,
    List.cons_append, List.nil_append]
  after_results_simp
  rfl

end Cert.KernelIdeal.ZonoValue

end
-- ==== Proof.ZonoPayload.lean ====
/-
  The kernel body's one stored value, read at an entry of the block.

  At block row `ri` the body stores, at entry (r, q) of its 256 x 2048 block, the center's entry q when the table row
  `ri * 256 + r` is row 0, the error coefficient's entry q when that row is the one the row vector names for column q,
  and zero otherwise. The row is computed on 32-bit words; it stays below 2^32, so the word is the row's number.
-/
import proofs.«120351_j46454366273939_1_alg».proof.Proof.Gen.KernelIdeal.Skeleton
import proofs.«120351_j46454366273939_1_alg».proof.Proof.Spec
import Idealize.ShloMosaic.Lib.Pipeline.Value
import Idealize.ShloMosaic.Lib.ValueIdx
import Idealize.ShloMosaic.Lib.ValueLayout

noncomputable section

namespace Cert.KernelIdeal.ZonoValue

open Cert.KernelIdeal Cert.KernelIdeal.Gen Idealize.ShloMosaic Idealize.ShloMosaic.ValueIdx

variable {F : FTy → Type} [FloatOps F]

/-- The row of the table an entry of a block lies in, as the kernel computes it: the row inside the block plus 256 times the
    block row, as 32-bit words. -/
def rowWord (ri r : Nat) : BitVec 32 := IntOp.addi (BitVec.ofNat 32 r) (Scalar.muli (BitVec.ofNat 32 ri) 256#32)

/-- The body's one stored value at entry (r, q) of the block: the center's entry q in the table's row 0, the error
    coefficient's entry q in the row the row block names for column q, zero elsewhere. -/
theorem pay_apply (i : grid0.Coords) (v4 : Vec F S1x2048 .i32) (v8 v12 : Vec F S1x2048 .f32) (r : Fin 256) (q : Fin 2048) :
    k0_pay1 i v4 v8 v12 (ix2 r q)
      = Scalar.select (IntOp.cmpi .eq (rowWord (i 1).val r.val) 0#32) (v12 (ix2 (0 : Fin 1) q))
          (Scalar.select (IntOp.cmpi .eq (rowWord (i 1).val r.val) (v4 (ix2 (0 : Fin 1) q))) (v8 (ix2 (0 : Fin 1) q)) (Scalar.ofBits .f32 0x00000000#32)) := by
  unfold k0_pay1
  simp only [shapeCast_self]
  rw [select_apply, select_apply, broadcastTo_1b_ab_apply v12 _ r q, broadcastTo_1b_ab_apply v8 _ r q]
  show Scalar.select (IntOp.cmpi .eq (IntOp.addi (iota .tc S256x2048 32 [0] iota_S256x2048_d0_w32 (ix2 r q)) _) 0#32) _
    (Scalar.select (IntOp.cmpi .eq (IntOp.addi (iota .tc S256x2048 32 [0] iota_S256x2048_d0_w32 (ix2 r q)) _) (broadcastTo S256x2048 v4 broadcasts_S1x2048_S256x2048 (ix2 r q))) _ _) = _
  rw [iota_single_apply, broadcastTo_1b_ab_apply v4 _ r q]
  rfl

/-- A select on an equality test of two words is an `if` on their equality. -/
theorem select_cmpi_eq {α : Type} (a b : BitVec 32) (x y : α) :
    Scalar.select (IntOp.cmpi .eq a b) x y = if a = b then x else y := by
  unfold Scalar.select IntOp.cmpi
  by_cases h : a = b
  · subst h; simp
  · have hb : (a == b) = false := by simpa using h
    rw [if_neg h, hb]; simp

/-- The kernel's row word is the row's number: no wrap-around. -/
theorem rowWord_eq (ri r : Nat) : rowWord ri r = BitVec.ofNat 32 (ri * 256 + r) := by
  unfold rowWord IntOp.addi Scalar.muli IntOp.muli
  rw [Nat.add_comm, BitVec.ofNat_add, BitVec.ofNat_mul]

/-- A word below 2^32 is the zero word only if it is zero. -/
theorem ofNat_eq_zero_iff (n : Nat) (h : n < 4294967296) : BitVec.ofNat 32 n = 0#32 ↔ n = 0 := by
  constructor
  · intro e
    have := congrArg BitVec.toNat e
    simp at this
    omega
  · rintro rfl; rfl

/-- The stored value at entry (r, q) of the block at block row `ri` is the table's entry (ri * 256 + r, Q), when the three
    loaded rows hold, at q, the table's three columns' data at Q. -/
theorem pay_eq_table (cf ef : FVec F S12288 .f32) (rw : IVec S12288 32)
    (i : grid0.Coords) (v4 : Vec F S1x2048 .i32) (v8 v12 : Vec F S1x2048 .f32)
    (r : Fin 256) (q : Fin 2048) (R : Fin 12289) (Q : Fin 12288)
    (hR : R.val = (i 1).val * 256 + r.val)
    (h4 : v4 (ix2 (0 : Fin 1) q) = rw (ix1 Q)) (h8 : v8 (ix2 (0 : Fin 1) q) = ef (ix1 Q))
    (h12 : v12 (ix2 (0 : Fin 1) q) = cf (ix1 Q)) :
    k0_pay1 i v4 v8 v12 (ix2 r q) = Cert.Zono.table cf ef rw (ix2 R Q) := by
  rw [pay_apply, select_cmpi_eq, select_cmpi_eq, rowWord_eq, ← hR, h4, h8, h12]
  have hlt : R.val < 4294967296 := lt_trans R.isLt (by decide)
  show _ = if R.val = 0 then cf (ix1 Q) else if BitVec.ofNat 32 R.val = rw (ix1 Q) then ef (ix1 Q) else FloatOps.ofBits .f32 0x00000000#32
  by_cases h0 : R.val = 0
  · rw [if_pos ((ofNat_eq_zero_iff _ hlt).mpr h0), if_pos h0]
  · rw [if_neg (fun e => h0 ((ofNat_eq_zero_iff _ hlt).mp e)), if_neg h0]

end Cert.KernelIdeal.ZonoValue
end
-- ==== Proof.ZonoGrid.lean ====
/-
  The grid's arithmetic, decided once over its 294 points: where each window's block sits at a point, how the output's
  block is cut at the array's end, and that every pair of coordinates is some point's.
-/
import proofs.«120351_j46454366273939_1_alg».proof.Proof.Gen.KernelIdeal.Points

noncomputable section

namespace Cert.KernelIdeal.ZonoValue

open Cert.KernelIdeal Cert.KernelIdeal.Gen Idealize.ShloMosaic

theorem hz : (![0, 0] : Fin 2 → Nat) = fun _ => 0 := funext fun a => by fin_cases a <;> rfl

/-- The printed index maps, decided over the grid: the three input rows' blocks move with the grid's first coordinate
    along the columns; the output's block is at (second coordinate, first coordinate). -/
theorem idx_facts : ∀ t : Fin cfg0.N,
    win0_0.index t (0 : Fin 2) = 0 ∧ win0_0.index t (1 : Fin 2) = (grid0.coords t 0).val
    ∧ win0_1.index t (0 : Fin 2) = 0 ∧ win0_1.index t (1 : Fin 2) = (grid0.coords t 0).val
    ∧ win0_2.index t (0 : Fin 2) = 0 ∧ win0_2.index t (1 : Fin 2) = (grid0.coords t 0).val
    ∧ win0_3.index t (0 : Fin 2) = (grid0.coords t 1).val ∧ win0_3.index t (1 : Fin 2) = (grid0.coords t 0).val :=
  (by decide +kernel : ∀ t : Fin grid0.N, _)

/-- How the output's block is cut at the array's end: the last block row keeps one row; no other cut. -/
theorem xsize_facts : ∀ t : Fin cfg0.N,
    win0_3.xsize (grid0.coords t) (0 : Fin 2) = (if (grid0.coords t 1).val = 48 then 1 else 256)
    ∧ win0_3.xsize (grid0.coords t) (1 : Fin 2) = 2048 :=
  (by decide +kernel : ∀ t : Fin grid0.N, _)

/-- Every pair of coordinates is some point's. -/
theorem idx_onto : ∀ (q0 : Fin 6) (q1 : Fin 49), ∃ t : Fin cfg0.N, (grid0.coords t 0).val = q0.val ∧ (grid0.coords t 1).val = q1.val :=
  (by decide +kernel : ∀ (q0 : Fin 6) (q1 : Fin 49), ∃ t : Fin grid0.N, (grid0.coords t 0).val = q0.val ∧ (grid0.coords t 1).val = q1.val)

end Cert.KernelIdeal.ZonoValue
end
-- ==== Proof.ZonoBlocks.lean ====
/-
  From the blocks to the table.

  The pipeline's output array is written block by block: the point at grid coordinates (i0, i1) writes the block of
  256 rows starting at row i1 * 256 and 2048 columns starting at column i0 * 2048 — the last block row cut to the one
  row, 12288, that lies inside the array. What a point writes is the body's stored value on the block, and that is the
  table's entries on the block (the three input rows' blocks are the three columns' data at columns
  i0 * 2048 + q). The blocks cover the array, so the array ends holding the table.
-/
import proofs.«120351_j46454366273939_1_alg».proof.Proof.KernelIdealFrameP
import proofs.«120351_j46454366273939_1_alg».proof.Proof.ZonoPayload
import proofs.«120351_j46454366273939_1_alg».proof.Proof.ZonoGrid
import Idealize.ShloMosaic.Lib.Pipeline.Value
import Idealize.ShloMosaic.Lib.ValueIdx
import Idealize.ShloMosaic.Lib.ValueLayout

noncomputable section

namespace Cert.KernelIdeal.ZonoValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- The center's block at a point: entry q of the row is the flattened center at column i0 * 2048 + q. -/
theorem iblk0_apply (c : Dev nD) (t : Fin cfg0.N) (cf : FVec F S12288 .f32)
    (hc : (V m c main_v29 : S1x12288.Idx → F .f32) = shapeCast S1x12288 cf (by decide))
    (q : Fin 2048) (Q : Fin 12288) (hQ : Q.val = (grid0.coords t 0).val * 2048 + q.val) :
    (iblk m c 0 t : Vec F S1x2048 .f32) (ix2 (0 : Fin 1) q) = cf (ix1 Q) := by
  obtain ⟨e0, e1, -⟩ := idx_facts t
  unfold iblk
  rw [View.read_apply]
  show (V m c main_v29 : S1x12288.Idx → F .f32) (((cfg0.win 0).blk t).view.emb (ix2 (0 : Fin 1) q)) = _
  rw [hc]
  have e : ((cfg0.win 0).blk t).view.emb (ix2 (0 : Fin 1) q) = (ix2 (0 : Fin 1) Q : S1x12288.Idx) := by
    funext a; apply Fin.ext
    match a with
    | ⟨0, _⟩ => show win0_0.index t (0 : Fin 2) * 1 + 1 * 0 = 0; rw [e0]
    | ⟨1, _⟩ => show win0_0.index t (1 : Fin 2) * 2048 + 1 * q.val = Q.val; rw [e1, hQ]; omega
  rw [e]
  exact shapeCast_a_1a_apply cf _ (0 : Fin 1) Q

/-- The error coefficients' block at a point. -/
theorem iblk1_apply (c : Dev nD) (t : Fin cfg0.N) (ef : FVec F S12288 .f32)
    (he : (V m c main_v30 : S1x12288.Idx → F .f32) = shapeCast S1x12288 ef (by decide))
    (q : Fin 2048) (Q : Fin 12288) (hQ : Q.val = (grid0.coords t 0).val * 2048 + q.val) :
    (iblk m c 1 t : Vec F S1x2048 .f32) (ix2 (0 : Fin 1) q) = ef (ix1 Q) := by
  obtain ⟨-, -, e0, e1, -⟩ := idx_facts t
  unfold iblk
  rw [View.read_apply]
  show (V m c main_v30 : S1x12288.Idx → F .f32) (((cfg0.win 1).blk t).view.emb (ix2 (0 : Fin 1) q)) = _
  rw [he]
  have e : ((cfg0.win 1).blk t).view.emb (ix2 (0 : Fin 1) q) = (ix2 (0 : Fin 1) Q : S1x12288.Idx) := by
    funext a; apply Fin.ext
    match a with
    | ⟨0, _⟩ => show win0_1.index t (0 : Fin 2) * 1 + 1 * 0 = 0; rw [e0]
    | ⟨1, _⟩ => show win0_1.index t (1 : Fin 2) * 2048 + 1 * q.val = Q.val; rw [e1, hQ]; omega
  rw [e]
  exact shapeCast_a_1a_apply ef _ (0 : Fin 1) Q

/-- The row vector's block at a point. -/
theorem iblk2_apply (c : Dev nD) (t : Fin cfg0.N) (rw : IVec S12288 32)
    (hr : (V m c main_v31 : S1x12288.Idx → BitVec 32) = shapeCast S1x12288 rw (by decide))
    (q : Fin 2048) (Q : Fin 12288) (hQ : Q.val = (grid0.coords t 0).val * 2048 + q.val) :
    (iblk m c 2 t : Vec F S1x2048 .i32) (ix2 (0 : Fin 1) q) = rw (ix1 Q) := by
  obtain ⟨-, -, -, -, e0, e1, -⟩ := idx_facts t
  unfold iblk
  rw [View.read_apply]
  show (V m c main_v31 : S1x12288.Idx → BitVec 32) (((cfg0.win 2).blk t).view.emb (ix2 (0 : Fin 1) q)) = _
  rw [hr]
  have e : ((cfg0.win 2).blk t).view.emb (ix2 (0 : Fin 1) q) = (ix2 (0 : Fin 1) Q : S1x12288.Idx) := by
    funext a; apply Fin.ext
    match a with
    | ⟨0, _⟩ => show win0_2.index t (0 : Fin 2) * 1 + 1 * 0 = 0; rw [e0]
    | ⟨1, _⟩ => show win0_2.index t (1 : Fin 2) * 2048 + 1 * q.val = Q.val; rw [e1, hQ]; omega
  rw [e]
  exact shapeCast_a_1a_apply rw _ (0 : Fin 1) Q

/-- WHAT A POINT WRITES BACK is its block of the table: the part of the 256 x 2048 block that lies inside the array,
    entry by entry the table at row i1 * 256 + r and column i0 * 2048 + q. -/
theorem flushed_eq (c : Dev nD) (cf ef : FVec F S12288 .f32) (rw : IVec S12288 32)
    (hc : (V m c main_v29 : S1x12288.Idx → F .f32) = shapeCast S1x12288 cf (by decide))
    (he : (V m c main_v30 : S1x12288.Idx → F .f32) = shapeCast S1x12288 ef (by decide))
    (hr : (V m c main_v31 : S1x12288.Idx → BitVec 32) = shapeCast S1x12288 rw (by decide))
    (t : Fin cfg0.N) :
    (dats m 0 c).flushed 3 t = ((cfg0.win 3).blk t).view.read (Elt F) (Cert.Zono.table cf ef rw) := by
  show (cfg0.win 3).cut (grid0.coords t) ((dats m 0 c).after 3 t) = _
  rw [after0_3]
  unfold out0_3
  rw [View.canon_unit_zero hz]
  simp only [View.ld_unit_zero (S := S1x2048) hz]
  obtain ⟨-, -, -, -, -, -, e30, e31⟩ := idx_facts t
  funext y
  obtain ⟨r, q, ey⟩ : ∃ (r : Fin 256) (q : Fin 2048), (cfg0.win 3).xinj (grid0.coords t) y = ix2 r q := ⟨_, _, eq_ix2 _⟩
  obtain ⟨R, Q, eI⟩ : ∃ (R : Fin 12289) (Q : Fin 12288), ((cfg0.win 3).blk t).view.emb y = ix2 R Q := ⟨_, _, eq_ix2 _⟩
  have hr0 : r.val = (y 0).val := (congrArg (fun j : S256x2048.Idx => (j 0).val) ey).symm
  have hq0 : q.val = (y 1).val := (congrArg (fun j : S256x2048.Idx => (j 1).val) ey).symm
  have hR : R.val = (grid0.coords t 1).val * 256 + r.val := by
    have h : win0_3.index t (0 : Fin 2) * 256 + 1 * (y 0).val = R.val := congrArg (fun I : S12289x12288.Idx => (I 0).val) eI
    rw [← h, e30, hr0]; omega
  have hQ : Q.val = (grid0.coords t 0).val * 2048 + q.val := by
    have h : win0_3.index t (1 : Fin 2) * 2048 + 1 * (y 1).val = Q.val := congrArg (fun I : S12289x12288.Idx => (I 1).val) eI
    rw [← h, e31, hq0]; omega
  show k0_pay1 (grid0.coords t) (iblk m c 2 t) (iblk m c 1 t) (iblk m c 0 t) ((cfg0.win 3).xinj (grid0.coords t) y)
    = Cert.Zono.table cf ef rw (((cfg0.win 3).blk t).view.emb y)
  rw [ey, eI]
  exact pay_eq_table cf ef rw (grid0.coords t) (iblk m c 2 t) (iblk m c 1 t) (iblk m c 0 t) r q R Q hR
    (iblk2_apply m c t rw hr q Q hQ) (iblk1_apply m c t ef he q Q hQ) (iblk0_apply m c t cf hc q Q hQ)

/-- An index of the array is in a point's block iff each coordinate is in the block's range on its axis, the range cut
    at the array's end. -/
theorem mem_blk (t : Fin cfg0.N) (i : S12289x12288.Idx) :
    i ∈ ((cfg0.win 3).blk t).view.set ↔ ∀ a : Fin 2, win0_3.index t a * S256x2048.size a ≤ (i a).val
      ∧ (i a).val < win0_3.index t a * S256x2048.size a + win0_3.xsize (grid0.coords t) a := by
  show i ∈ ((View.whole main_v32).slice (win0_3.rect t)).set ↔ _
  rw [View.set_slice_whole, Rect.mem_set_unit]
  exact Iff.rfl

/-- THE BLOCKS COVER THE ARRAY: the entry in row R and column Q is in the block of the point at coordinates
    (Q / 2048, R / 256) — row 12288, the one row of the last block row, included. -/
theorem cover (i : S12289x12288.Idx) :
    ∃ t : Fin cfg0.N, (cfg0.win 3).flush t = true ∧ i ∈ ((cfg0.win 3).blk t).view.set := by
  have hi0 : (i 0).val < 12289 := (i 0).isLt
  have hi1 : (i 1).val < 12288 := (i 1).isLt
  obtain ⟨t, ht0, ht1⟩ := idx_onto ⟨(i 1).val / 2048, by omega⟩ ⟨(i 0).val / 256, by omega⟩
  obtain ⟨-, -, -, -, -, -, e30, e31⟩ := idx_facts t
  obtain ⟨x0, x1⟩ := xsize_facts t
  have ht0' : (grid0.coords t 0).val = (i 1).val / 2048 := ht0
  have ht1' : (grid0.coords t 1).val = (i 0).val / 256 := ht1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + win0_3.xsize (grid0.coords t) (0 : Fin 2)
    rw [e30, x0, ht1']
    split <;> omega
  | ⟨1, _⟩ =>
    show win0_3.index t (1 : Fin 2) * 2048 ≤ (i 1).val ∧ (i 1).val < win0_3.index t (1 : Fin 2) * 2048 + win0_3.xsize (grid0.coords t) (1 : Fin 2)
    rw [e31, x1, ht0']
    omega

/-- THE ARRAY AFTER THE RUN is the table of the three columns' data the region found. -/
theorem final_of (c : Dev nD) (cf ef : FVec F S12288 .f32) (rw : IVec S12288 32)
    (hc : (V m c main_v29 : S1x12288.Idx → F .f32) = shapeCast S1x12288 cf (by decide))
    (he : (V m c main_v30 : S1x12288.Idx → F .f32) = shapeCast S1x12288 ef (by decide))
    (hr : (V m c main_v31 : S1x12288.Idx → BitVec 32) = shapeCast S1x12288 rw (by decide)) :
    (dats m 0 c).arrAt 3 cfg0.N = Cert.Zono.table cf ef rw :=
  (dats m 0 c).arrAt_eq_of_cover 3 (Cert.Zono.table cf ef rw) (fun t _ => flushed_eq m c cf ef rw hc he hr t) cover

end Cert.KernelIdeal.ZonoValue
end
-- ==== Proof.KernelRun.lean ====
/-
  The idealized kernel's run, with its results named.

  After the call the output array holds the table of the three columns' data the call found — the flattened center,
  the flattened error coefficients and the row words — and those are the specification's stages of the image. The
  one host operation after the call recasts the table to one [3, 64, 64] image per row. The created terms were
  written before the call and nothing after it writes them; the argument is never written.
-/
import proofs.«120351_j46454366273939_1_alg».proof.Proof.KernelIdealFrameP
import proofs.«120351_j46454366273939_1_alg».proof.Proof.KernelHostValues
import proofs.«120351_j46454366273939_1_alg».proof.Proof.ZonoBlocks
import proofs.«120351_j46454366273939_1_alg».proof.Proof.Spec
import Idealize.ShloMosaic.Lib.Pipeline.Value

noncomputable section

namespace Cert.KernelIdeal.ZonoValue

open Cert.KernelIdeal Cert.KernelIdeal.Gen Cert.KernelIdeal.GenP Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The host operation after the call: the first result is the call's output array, the table, recast. -/
theorem tail_zono (c : Dev nD) :
    Pipeline.afterTail₀ cfgs (dats m) 0 (V0 m) [hostOps1] c main_v33 = Cert.Zono.zono (m ((c : Thread nD τ).loc main_arg0)) := by
  unfold Pipeline.afterTail₀
  show StableHlo.after hostOps1 _ (Proc.devRef .tc main_v33) = _
  after_results
  have hA : Pipeline.withArrays (cfgs 0).spec c (V0 m c) (fun w => (dats m 0 c).arrAt w (cfgs 0).N) (Proc.devRef .tc main_v32)
      = Cert.Zono.table (Cert.Zono.centerFlat (m ((c : Thread nD τ).loc main_arg0))) (Cert.Zono.errFlat (m ((c : Thread nD τ).loc main_arg0))) (Cert.Zono.row (m ((c : Thread nD τ).loc main_arg0))) :=
    (Pipeline.withArrays_arr spec0 launch0.win.arr_inj c (V0 m c) (fun w => (dats m 0 c).arrAt w cfg0.N) 3).trans
      (final_of m c _ _ _ (V_center m c) (V_err m c) (V_row m c))
  rw [hA]
  rfl

/-- The second result is no array of the call and the operation after the call does not write it: it ends as the
    call found it. -/
theorem tail_terms (c : Dev nD) :
    Pipeline.afterTail₀ cfgs (dats m) 0 (V0 m) [hostOps1] c main_v27 = Cert.Zono.terms (m ((c : Thread nD τ).loc main_arg0)) := by
  unfold Pipeline.afterTail₀
  rw [StableHlo.after_of_forall_not_mem (b := Proc.devRef .tc main_v27) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne (by decide))),
    Pipeline.withArrays_of_ne _ c (V0 m c) _ main_v27 (by exact (by decide : ∀ w, Pipeline.arrRef spec0 w ≠ main_v27))]
  exact V_terms m c

/-- Every weakly fair execution of the idealized kernel ends with the table of the image, its created terms, and the
    image untouched (at any float instance: the body only compares integer words and selects). -/
theorem run_F : θ_run (defs (F := F)) (onTc (τ := τ) (main (F := F))) ⟨m, fun _ => 0, ρ⟩ fun r => ∀ c : Dev nD,
      r.2.mem ((c.tc : Thread nD τ).loc main_v33) = Cert.Zono.zono (m ((c.tc : Thread nD τ).loc main_arg0))
    ∧ r.2.mem ((c.tc : Thread nD τ).loc main_v27) = Cert.Zono.terms (m ((c.tc : Thread nD τ).loc main_arg0))
    ∧ r.2.mem ((c.tc : Thread nD τ).loc main_arg0) = m ((c.tc : Thread nD τ).loc main_arg0) :=
  (θ_run defs _ _).mono (fun _ h c =>
      ⟨((h c).2 main_v33 (Pipeline.mem_restRefs_of main_v33 (by decide) (by decide))).trans (tail_zono m c),
       ((h c).2 main_v27 (Pipeline.mem_restRefs_of main_v27 (by decide) (by decide))).trans (tail_terms m c),
       ((h c).2 main_arg0 (Pipeline.mem_restRefs_of main_arg0 (by decide) (by decide))).trans (W_main_arg0 m (dats m) c)⟩)
    (GenP.run_main m ρ)

/-- The same at the extended reals. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v33) = Cert.Zono.zono (F := Ideal) (m ((c.tc : Thread nD τ).loc main_arg0))
    ∧ r.2.mem ((c.tc : Thread nD τ).loc main_v27) = Cert.Zono.terms (F := Ideal) (m ((c.tc : Thread nD τ).loc main_arg0))
    ∧ r.2.mem ((c.tc : Thread nD τ).loc main_arg0) = m ((c.tc : Thread nD τ).loc main_arg0) :=
  run_F (F := Ideal) m ρ

end Cert.KernelIdeal.ZonoValue

end
-- ==== Proof.RefRun.lean ====
/-
  The reference's @main as ONE straight line of host operations, and its run.

  @main calls module-local functions (relu twice, cumsum through cumsum_0, _where three times, floor_divide through
  _where_1). A call executes the callee's body on the operands, each value of the body in a buffer of its own
  (the call's record), so @main is the list below: its own operations in order, each call replaced by the callee's
  operations over that call's record. From any memory with zero counters every weakly fair execution terminates
  with every buffer at the fold of the list over the launch contents.
-/
import proofs.«120351_j46454366273939_1_alg».proof.Proof.Gen.ReferenceIdeal
import Idealize.ShloMosaic.Lib.StableHlo.Run

noncomputable section

namespace Cert.ReferenceIdeal.ZonoRun

open Cert.ReferenceIdeal Cert.ReferenceIdeal.Gen Idealize.ShloMosaic Idealize.ShloMosaic.TcCoe Idealize.SL.Sem

variable {F : FTy → Type} [FloatOps F]

/-- @main's 91 operations in order, the calls unfolded: lo and hi each through relu's three (the zero, its
    broadcast, the maximum); the running count through cumsum_0's three (the zero, its rank-0 broadcast, the windowed
    sum); each `where` three (the scalar converted to its own type, broadcast, the select); floor_divide seventeen
    (the quotient, the two signs compared, the remainder compared with zero, the quotient less one, the select). -/
abbrev ops : List (HloOp τ sig (Elt F)) :=
  [ StableHlo.nullary main_cst (constant S_ .f32 0x3DCCCCCD#32),
    StableHlo.unary main_cst main_v0 (broadcastInDim S3x64x64 ![] bcast_S_S3x64x64 : (⟨S_, .f32⟩ : BufTy).Contents (Elt F) → (⟨S3x64x64, .f32⟩ : BufTy).Contents (Elt F)),
    StableHlo.binary main_v0 main_arg0 main_v1 (subf : (⟨S3x64x64, .f32⟩ : BufTy).Contents (Elt F) → (⟨S3x64x64, .f32⟩ : BufTy).Contents (Elt F) → (⟨S3x64x64, .f32⟩ : BufTy).Contents (Elt F)),
    StableHlo.TRef.nullary main_call0.cst (constant S_ .f32 0x00000000#32),
    StableHlo.TRef.unary main_call0.cst main_call0.v0 (broadcastInDim S3x64x64 ![] bcast_S_S3x64x64),
    StableHlo.TRef.binary (.of main_v1 : StableHlo.TRef sig ⟨S3x64x64, .f32⟩) main_call0.v0 main_call0.v1 maximumf,
    StableHlo.nullary main_cst_0 (constant S_ .f32 0x3F000000#32),
    StableHlo.unary main_cst_0 main_v3 (broadcastInDim S3x64x64 ![] bcast_S_S3x64x64 : (⟨S_, .f32⟩ : BufTy).Contents (Elt F) → (⟨S3x64x64, .f32⟩ : BufTy).Contents (Elt F)),
    StableHlo.binary main_v2 main_v3 main_v4 (mulf : (⟨S3x64x64, .f32⟩ : BufTy).Contents (Elt F) → (⟨S3x64x64, .f32⟩ : BufTy).Contents (Elt F) → (⟨S3x64x64, .f32⟩ : BufTy).Contents (Elt F)),
    StableHlo.nullary main_cst_1 (constant S_ .f32 0x3F666666#32),
    StableHlo.unary main_cst_1 main_v5 (broadcastInDim S3x64x64 ![] bcast_S_S3x64x64 : (⟨S_, .f32⟩ : BufTy).Contents (Elt F) → (⟨S3x64x64, .f32⟩ : BufTy).Contents (Elt F)),
    StableHlo.binary main_arg0 main_v5 main_v6 (subf : (⟨S3x64x64, .f32⟩ : BufTy).Contents (Elt F) → (⟨S3x64x64, .f32⟩ : BufTy).Contents (Elt F) → (⟨S3x64x64, .f32⟩ : BufTy).Contents (Elt F)),
    StableHlo.TRef.nullary main_call1.cst (constant S_ .f32 0x00000000#32),
    StableHlo.TRef.unary main_call1.cst main_call1.v0 (broadcastInDim S3x64x64 ![] bcast_S_S3x64x64),
    StableHlo.TRef.binary (.of main_v6 : StableHlo.TRef sig ⟨S3x64x64, .f32⟩) main_call1.v0 main_call1.v1 maximumf,
    StableHlo.nullary main_cst_2 (constant S_ .f32 0x3F000000#32),
    StableHlo.unary main_cst_2 main_v8 (broadcastInDim S3x64x64 ![] bcast_S_S3x64x64 : (⟨S_, .f32⟩ : BufTy).Contents (Elt F) → (⟨S3x64x64, .f32⟩ : BufTy).Contents (Elt F)),
    StableHlo.binary main_v7 main_v8 main_v9 (mulf : (⟨S3x64x64, .f32⟩ : BufTy).Contents (Elt F) → (⟨S3x64x64, .f32⟩ : BufTy).Contents (Elt F) → (⟨S3x64x64, .f32⟩ : BufTy).Contents (Elt F)),
    StableHlo.binary main_arg0 main_v4 main_v10 (addf : (⟨S3x64x64, .f32⟩ : BufTy).Contents (Elt F) → (⟨S3x64x64, .f32⟩ : BufTy).Contents (Elt F) → (⟨S3x64x64, .f32⟩ : BufTy).Contents (Elt F)),
    StableHlo.binary main_v10 main_v9 main_v11 (subf : (⟨S3x64x64, .f32⟩ : BufTy).Contents (Elt F) → (⟨S3x64x64, .f32⟩ : BufTy).Contents (Elt F) → (⟨S3x64x64, .f32⟩ : BufTy).Contents (Elt F)),
    StableHlo.nullary main_cst_3 (constant S_ .f32 0x3DCCCCCD#32),
    StableHlo.unary main_cst_3 main_v12 (broadcastInDim S3x64x64 ![] bcast_S_S3x64x64 : (⟨S_, .f32⟩ : BufTy).Contents (Elt F) → (⟨S3x64x64, .f32⟩ : BufTy).Contents (Elt F)),
    StableHlo.binary main_v12 main_v4 main_v13 (subf : (⟨S3x64x64, .f32⟩ : BufTy).Contents (Elt F) → (⟨S3x64x64, .f32⟩ : BufTy).Contents (Elt F) → (⟨S3x64x64, .f32⟩ : BufTy).Contents (Elt F)),
    StableHlo.binary main_v13 main_v9 main_v14 (subf : (⟨S3x64x64, .f32⟩ : BufTy).Contents (Elt F) → (⟨S3x64x64, .f32⟩ : BufTy).Contents (Elt F) → (⟨S3x64x64, .f32⟩ : BufTy).Contents (Elt F)),
    StableHlo.reshape main_v14 main_v15 rfl shapeCasts_S3x64x64_S12288,
    StableHlo.nullary main_cst_4 (constant S_ .f32 0x00000000#32),
    StableHlo.unary main_cst_4 main_v16 (broadcastInDim S12288 ![] bcast_S_S12288 : (⟨S_, .f32⟩ : BufTy).Contents (Elt F) → (⟨S12288, .f32⟩ : BufTy).Contents (Elt F)),
    StableHlo.binary main_v15 main_v16 main_v17 (cmpf .oge : (⟨S12288, .f32⟩ : BufTy).Contents (Elt F) → (⟨S12288, .f32⟩ : BufTy).Contents (Elt F) → (⟨S12288, .i1⟩ : BufTy).Contents (Elt F)),
    StableHlo.unary main_v17 main_v18 ((extui 32 · natLt_1_32) : (⟨S12288, .i1⟩ : BufTy).Contents (Elt F) → (⟨S12288, .i32⟩ : BufTy).Contents (Elt F)),
    StableHlo.TRef.nullary main_call2.call0.c (constantI S_ 32 0#32),
    StableHlo.TRef.unary main_call2.call0.c main_call2.call0.v0 (broadcastInDim S_ ![] bcast_S_S_),
    StableHlo.TRef.binary (.of main_v18 : StableHlo.TRef sig ⟨S12288, .i32⟩) main_call2.call0.v0 main_call2.call0.v1 (fun x v => Host.reduceWindow IntOp.addi ![12288] ![1] ![12287] ![0] x v reduceWindows_S12288_S12288_w12288s1p12287_0 h_S_),
    StableHlo.nullary main_c (constantI S_ 32 12289#32),
    StableHlo.TRef.unary (.of main_c : StableHlo.TRef sig ⟨S_, .i32⟩) main_call3.v0 id,
    StableHlo.TRef.unary main_call3.v0 main_call3.v1 (broadcastInDim S12288 ![] bcast_S_S12288),
    StableHlo.TRef.ternary (.of main_v17 : StableHlo.TRef sig ⟨S12288, .i1⟩) (.of main_v19 : StableHlo.TRef sig ⟨S12288, .i32⟩) main_call3.v1 main_call3.v2 select,
    StableHlo.nullary main_v21 (iotaInDim S12288 32 0),
    StableHlo.nullary main_cst_5 (constant S_ .f32 0x00000000#32),
    StableHlo.unary main_cst_5 main_v22 (broadcastInDim S12289x12288 ![] bcast_S_S12289x12288 : (⟨S_, .f32⟩ : BufTy).Contents (Elt F) → (⟨S12289x12288, .f32⟩ : BufTy).Contents (Elt F)),
    StableHlo.reshape main_v11 main_v23 rfl shapeCasts_S3x64x64_S12288,
    StableHlo.nullary main_c_6 (constantI S_ 32 0#32),
    StableHlo.unary main_c_6 main_v24 (broadcastInDim S1 ![] bcast_S_S1 : (⟨S_, .i32⟩ : BufTy).Contents (Elt F) → (⟨S1, .i32⟩ : BufTy).Contents (Elt F)),
    StableHlo.ternary main_v22 main_v24 main_v23 main_v25 ((fun x i u => Host.scatter scatter_S12289x12288_S1_S12288_0_0_0_0 (fun _ b => b) x i u) : (⟨S12289x12288, .f32⟩ : BufTy).Contents (Elt F) → (⟨S1, .i32⟩ : BufTy).Contents (Elt F) → (⟨S12288, .f32⟩ : BufTy).Contents (Elt F) → (⟨S12289x12288, .f32⟩ : BufTy).Contents (Elt F)),
    StableHlo.nullary main_c_7 (constantI S_ 32 0#32),
    StableHlo.unary main_c_7 main_v26 (broadcastInDim S12288 ![] bcast_S_S12288 : (⟨S_, .i32⟩ : BufTy).Contents (Elt F) → (⟨S12288, .i32⟩ : BufTy).Contents (Elt F)),
    StableHlo.binary main_v20 main_v26 main_v27 (cmpi .slt : (⟨S12288, .i32⟩ : BufTy).Contents (Elt F) → (⟨S12288, .i32⟩ : BufTy).Contents (Elt F) → (⟨S12288, .i1⟩ : BufTy).Contents (Elt F)),
    StableHlo.nullary main_c_8 (constantI S_ 32 12289#32),
    StableHlo.unary main_c_8 main_v28 (broadcastInDim S12288 ![] bcast_S_S12288 : (⟨S_, .i32⟩ : BufTy).Contents (Elt F) → (⟨S12288, .i32⟩ : BufTy).Contents (Elt F)),
    StableHlo.binary main_v20 main_v28 main_v29 (addi : (⟨S12288, .i32⟩ : BufTy).Contents (Elt F) → (⟨S12288, .i32⟩ : BufTy).Contents (Elt F) → (⟨S12288, .i32⟩ : BufTy).Contents (Elt F)),
    StableHlo.ternary main_v27 main_v29 main_v20 main_v30 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.nullary main_c_9 (constantI S_ 32 0#32),
    StableHlo.unary main_c_9 main_v31 (broadcastInDim S12288 ![] bcast_S_S12288 : (⟨S_, .i32⟩ : BufTy).Contents (Elt F) → (⟨S12288, .i32⟩ : BufTy).Contents (Elt F)),
    StableHlo.binary main_v21 main_v31 main_v32 (cmpi .slt : (⟨S12288, .i32⟩ : BufTy).Contents (Elt F) → (⟨S12288, .i32⟩ : BufTy).Contents (Elt F) → (⟨S12288, .i1⟩ : BufTy).Contents (Elt F)),
    StableHlo.nullary main_c_10 (constantI S_ 32 12288#32),
    StableHlo.unary main_c_10 main_v33 (broadcastInDim S12288 ![] bcast_S_S12288 : (⟨S_, .i32⟩ : BufTy).Contents (Elt F) → (⟨S12288, .i32⟩ : BufTy).Contents (Elt F)),
    StableHlo.binary main_v21 main_v33 main_v34 (addi : (⟨S12288, .i32⟩ : BufTy).Contents (Elt F) → (⟨S12288, .i32⟩ : BufTy).Contents (Elt F) → (⟨S12288, .i32⟩ : BufTy).Contents (Elt F)),
    StableHlo.ternary main_v32 main_v34 main_v21 main_v35 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    StableHlo.unary main_v30 main_v36 (broadcastInDim S12288x1 ![0] bcast_S12288_S12288x1_0 : (⟨S12288, .i32⟩ : BufTy).Contents (Elt F) → (⟨S12288x1, .i32⟩ : BufTy).Contents (Elt F)),
    StableHlo.unary main_v35 main_v37 (broadcastInDim S12288x1 ![0] bcast_S12288_S12288x1_0 : (⟨S12288, .i32⟩ : BufTy).Contents (Elt F) → (⟨S12288x1, .i32⟩ : BufTy).Contents (Elt F)),
    StableHlo.binary main_v36 main_v37 main_v38 ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)),
    StableHlo.ternary main_v25 main_v38 main_v15 main_v39 ((fun x i u => Host.scatter scatter_S12289x12288_S12288x2_S12288_n_01_01_1 (fun _ b => b) x i u) : (⟨S12289x12288, .f32⟩ : BufTy).Contents (Elt F) → (⟨S12288x2, .i32⟩ : BufTy).Contents (Elt F) → (⟨S12288, .f32⟩ : BufTy).Contents (Elt F) → (⟨S12289x12288, .f32⟩ : BufTy).Contents (Elt F)),
    StableHlo.reshape main_v39 main_v40 rfl shapeCasts_S12289x12288_S12289x3x64x64,
    StableHlo.nullary main_c_11 (constantI S_ 32 4096#32),
    StableHlo.TRef.unary (.of main_c_11 : StableHlo.TRef sig ⟨S_, .i32⟩) main_call4.v0 id,
    StableHlo.TRef.unary main_call4.v0 main_call4.v1 (broadcastInDim S12288 ![] bcast_S_S12288),
    StableHlo.TRef.binary (.of main_v21 : StableHlo.TRef sig ⟨S12288, .i32⟩) main_call4.v1 main_call4.v2 Host.divsi,
    StableHlo.TRef.unary (.of main_v21 : StableHlo.TRef sig ⟨S12288, .i32⟩) main_call4.v3 signi,
    StableHlo.TRef.unary main_call4.v0 main_call4.v4 signi,
    StableHlo.TRef.unary main_call4.v4 main_call4.v5 (broadcastInDim S12288 ![] bcast_S_S12288),
    StableHlo.TRef.binary main_call4.v3 main_call4.v5 main_call4.v6 (cmpi .ne),
    StableHlo.TRef.unary main_call4.v0 main_call4.v7 (broadcastInDim S12288 ![] bcast_S_S12288),
    StableHlo.TRef.binary (.of main_v21 : StableHlo.TRef sig ⟨S12288, .i32⟩) main_call4.v7 main_call4.v8 Host.remsi,
    StableHlo.TRef.nullary main_call4.c (constantI S_ 32 0#32),
    StableHlo.TRef.unary main_call4.c main_call4.v9 (broadcastInDim S12288 ![] bcast_S_S12288),
    StableHlo.TRef.binary main_call4.v8 main_call4.v9 main_call4.v10 (cmpi .ne),
    StableHlo.TRef.binary main_call4.v6 main_call4.v10 main_call4.v11 andi,
    StableHlo.TRef.nullary main_call4.c_0 (constantI S_ 32 1#32),
    StableHlo.TRef.unary main_call4.c_0 main_call4.v12 (broadcastInDim S12288 ![] bcast_S_S12288),
    StableHlo.TRef.binary main_call4.v2 main_call4.v12 main_call4.v13 subi,
    StableHlo.TRef.ternary main_call4.v11 main_call4.v13 main_call4.v2 main_call4.call0.v0 select,
    StableHlo.nullary main_c_12 (constantI S_ 32 4294967295#32),
    StableHlo.TRef.unary (.of main_c_12 : StableHlo.TRef sig ⟨S_, .i32⟩) main_call5.v0 id,
    StableHlo.TRef.unary main_call5.v0 main_call5.v1 (broadcastInDim S12288 ![] bcast_S_S12288),
    StableHlo.TRef.ternary (.of main_v17 : StableHlo.TRef sig ⟨S12288, .i1⟩) (.of main_v20 : StableHlo.TRef sig ⟨S12288, .i32⟩) main_call5.v1 main_call5.v2 select,
    StableHlo.nullary main_c_13 (constantI S_ 32 4294967295#32),
    StableHlo.TRef.unary (.of main_c_13 : StableHlo.TRef sig ⟨S_, .i32⟩) main_call6.v0 id,
    StableHlo.TRef.unary main_call6.v0 main_call6.v1 (broadcastInDim S12288 ![] bcast_S_S12288),
    StableHlo.TRef.ternary (.of main_v17 : StableHlo.TRef sig ⟨S12288, .i1⟩) (.of main_v41 : StableHlo.TRef sig ⟨S12288, .i32⟩) main_call6.v1 main_call6.v2 select,
    StableHlo.unary main_v42 main_v44 (broadcastInDim S12288x1 ![0] bcast_S12288_S12288x1_0 : (⟨S12288, .i32⟩ : BufTy).Contents (Elt F) → (⟨S12288x1, .i32⟩ : BufTy).Contents (Elt F)),
    StableHlo.unary main_v43 main_v45 (broadcastInDim S12288x1 ![0] bcast_S12288_S12288x1_0 : (⟨S12288, .i32⟩ : BufTy).Contents (Elt F) → (⟨S12288x1, .i32⟩ : BufTy).Contents (Elt F)),
    StableHlo.binary main_v44 main_v45 main_v46 ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)) ]

-- ninety-one binds re-associated: the rewrite under the chain recurses once per statement
set_option maxRecDepth 8192 in
set_option maxHeartbeats 1600000 in
/-- @main is that straight line: the two windows and the functions' definitions unfolded at their calls and the
    records at their fields, both sides are one chain of steps once sequencing is reassociated. -/
theorem main_eq (c : Dev nD) : main (F := F) c = StableHlo.seq ops := by
  simp only [main, main_part0, main_part1, fn_relu.body, fn_cumsum.body, fn_cumsum_0.body, fn_where.body, fn_where_1.body,
    fn_floor_divide.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.binary_bufs_sub .., StableHlo.binary_bufs_sub .., StableHlo.nullary_bufs_sub .., StableHlo.unary_bufs_sub .., StableHlo.binary_bufs_sub .., StableHlo.binary_bufs_sub ..,
    StableHlo.reshape_bufs_sub .., StableHlo.nullary_bufs_sub .., StableHlo.unary_bufs_sub .., StableHlo.binary_bufs_sub .., StableHlo.unary_bufs_sub .., StableHlo.nullary_bufs_sub ..,
    StableHlo.unary_bufs_sub .., StableHlo.binary_bufs_sub .., StableHlo.nullary_bufs_sub .., StableHlo.unary_bufs_sub .., StableHlo.unary_bufs_sub .., StableHlo.ternary_bufs_sub ..,
    StableHlo.nullary_bufs_sub .., StableHlo.nullary_bufs_sub .., StableHlo.unary_bufs_sub .., StableHlo.reshape_bufs_sub .., StableHlo.nullary_bufs_sub .., StableHlo.unary_bufs_sub ..,
    StableHlo.ternary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.unary_bufs_sub .., StableHlo.binary_bufs_sub ..,
    StableHlo.ternary_bufs_sub .., StableHlo.reshape_bufs_sub .., StableHlo.nullary_bufs_sub .., StableHlo.unary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.binary_bufs_sub ..,
    StableHlo.nullary_bufs_sub .., StableHlo.unary_bufs_sub .., StableHlo.binary_bufs_sub .., StableHlo.binary_bufs_sub .., StableHlo.nullary_bufs_sub .., StableHlo.unary_bufs_sub ..,
    StableHlo.binary_bufs_sub .., StableHlo.ternary_bufs_sub .., StableHlo.nullary_bufs_sub .., StableHlo.unary_bufs_sub .., StableHlo.unary_bufs_sub .., StableHlo.ternary_bufs_sub ..,
    StableHlo.nullary_bufs_sub .., StableHlo.unary_bufs_sub .., StableHlo.unary_bufs_sub .., StableHlo.ternary_bufs_sub .., StableHlo.unary_bufs_sub .., StableHlo.unary_bufs_sub ..,
    StableHlo.binary_bufs_sub ..⟩

/-- At the compiled mesh, for any float values, from any memory with zero counters: every weakly fair execution of @main
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (b : DevRef τ sig) :=
  StableHlo.run_seq scopedRefs_eq scopedSems_eq defs main (fun _ => ops) main_eq (fun _ => ops_sub) m ρ

end Cert.ReferenceIdeal.ZonoRun

end
-- ==== Proof.RefValue.lean ====
/-
  What the reference's run leaves in its results and its argument, as the specification's terms.

  The fold of @main's operations at a buffer is a composed term of the argument's launch contents: each operation's
  result at its own buffer is its function applied to its operands' contents, and at any other buffer what was there.
  At the first result that term is the specification's table built by two scatters into zeros, reshaped to one image per
  row; at the second it is the specification's pairs (row, channel); the argument is written by no operation. The
  specification's stages (lo, hi, center, the error coefficients, the mask, the running count, the row of each column,
  the channel, the wrapped indices) are the same functions applied in the same order, so each equation holds by
  unfolding; a module-local function's conversion of a scalar to its own type is the identity, and a reshape's change
  of element type along an equality of a type with itself is the identity too.
-/
import proofs.«120351_j46454366273939_1_alg».proof.Proof.RefRun
import proofs.«120351_j46454366273939_1_alg».proof.Proof.Spec

noncomputable section

namespace Cert.ReferenceIdeal.ZonoRun

open Cert.ReferenceIdeal Cert.ReferenceIdeal.Gen Idealize.ShloMosaic Idealize.ShloMosaic.TcCoe Idealize.SL.Sem

variable {F : FTy → Type} [FloatOps F]

/-- No operation writes the argument. -/
theorem arg0_eq (V : Valuation τ sig (Elt F)) :
    StableHlo.after ops V (main_arg0 : DevRef τ sig) = V (main_arg0 : DevRef τ sig) := by
  after_results_simp

-- the windowed sum, the scatters and the concatenation are folds and searches over their operands' elements: kept folded,
-- the equation never looks inside them
attribute [local irreducible] Host.reduceWindow Host.scatter concatenate in
set_option maxRecDepth 8192 in
set_option maxHeartbeats 1600000 in
/-- The second result: per pixel (row, channel) where the mask holds, (-1, -1) elsewhere. -/
theorem v46_eq (V : Valuation τ sig (Elt F)) :
    StableHlo.after ops V (main_v46 : DevRef τ sig) = Cert.Zono.terms (V (main_arg0 : DevRef τ sig)) := by
  after_results_simp
  rfl

attribute [local irreducible] Host.reduceWindow Host.scatter concatenate in
set_option maxRecDepth 8192 in
set_option maxHeartbeats 1600000 in
/-- The first result: the center scattered into row 0 of a table of zeros, then each column's error coefficient at
    (row, column), reshaped to one image per row. -/
theorem v40_eq (V : Valuation τ sig (Elt F)) :
    StableHlo.after ops V (main_v40 : DevRef τ sig)
      = shapeCast Cert.Zono.S12289x3x64x64
          (Cert.Zono.scatTable (Cert.Zono.centerFlat (V (main_arg0 : DevRef τ sig))) (Cert.Zono.errFlat (V (main_arg0 : DevRef τ sig)))
            (Cert.Zono.row (V (main_arg0 : DevRef τ sig)))) (by decide) := by
  after_results_simp
  rfl

/-- At the compiled mesh, for any float values, from any memory with zero counters: every weakly fair execution of @main
    terminates with the first result at the scattered table of the argument, the second at its pairs, and the argument
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40)
          = shapeCast Cert.Zono.S12289x3x64x64
              (Cert.Zono.scatTable (Cert.Zono.centerFlat (m ((c.tc : Thread nD τ).loc main_arg0)))
                (Cert.Zono.errFlat (m ((c.tc : Thread nD τ).loc main_arg0)))
                (Cert.Zono.row (m ((c.tc : Thread nD τ).loc main_arg0)))) (by decide)
      ∧ r.2.mem ((c.tc : Thread nD τ).loc main_v46) = Cert.Zono.terms (m ((c.tc : Thread nD τ).loc main_arg0))
      ∧ r.2.mem ((c.tc : Thread nD τ).loc main_arg0) = m ((c.tc : Thread nD τ).loc main_arg0) :=
  (θ_run defs _ _).mono (fun _ h c => ⟨(h c main_v40).trans (v40_eq _), (h c main_v46).trans (v46_eq _),
      (h c main_arg0).trans (arg0_eq _)⟩)
    (run_main m ρ)

end Cert.ReferenceIdeal.ZonoRun

end
-- ==== Proof.LibScatterSet.lean ====
/-
  A scatter whose body returns the update (`x.at[idx].set(v)`), read at one element of the result.

  `Host.scatter d f x idx upd` is the left fold, over the update indices in row-major order, of
  "replace the element at the update's result index by `f old new`, or drop the update when that index is outside".
  Two facts about one element `i` of the result:
    * no update lands on `i`             → the element is the operand's (for any body `f`);
    * exactly one update `j₀` lands on `i` → with the body "return the update", the element is `upd j₀`.
  Both are inductions over the list of update positions; the second uses that the list has no repetition.
-/
import Idealize.ShloMosaic.PureOps

namespace Cert.ScatterSet

open Idealize.ShloMosaic

section Fold

variable {ι α β : Type} [DecidableEq ι]

/-- One step of the fold: update `n` replaces the element at `g n`, or is dropped. -/
def step (g : β → Option ι) (f : α → α → α) (v : β → α) (r : ι → α) (n : β) : ι → α :=
  match g n with
  | some k => fun i' => if i' = k then f (r k) (v n) else r i'
  | none => r

theorem step_of_ne (g : β → Option ι) (f : α → α → α) (v : β → α) (r : ι → α) (n : β) (i : ι)
    (h : g n ≠ some i) : step g f v r n i = r i := by
  unfold step
  cases hg : g n with
  | none => rfl
  | some k =>
    have hk : i ≠ k := fun e => h (by rw [hg, e])
    simp only [if_neg hk]

theorem step_set_of_eq (g : β → Option ι) (v : β → α) (r : ι → α) (n : β) (i : ι)
    (h : g n = some i) : step g (fun _ b => b) v r n i = v n := by
  unfold step
  rw [h]
  simp only [if_true]

/-- No update of the list lands on `i`: the element is the starting one. -/
theorem foldl_of_miss (g : β → Option ι) (f : α → α → α) (v : β → α) (l : List β) (x : ι → α) (i : ι)
    (h : ∀ n ∈ l, g n ≠ some i) : l.foldl (step g f v) x i = x i := by
  induction l generalizing x with
  | nil => rfl
  | cons a t ih =>
    rw [List.foldl_cons, ih _ (fun n hn => h n (List.mem_cons_of_mem _ hn)),
      step_of_ne g f v x a i (h a List.mem_cons_self)]

/-- Exactly one update `n₀` of a repetition-free list lands on `i`: the element is that update. -/
theorem foldl_set_of_unique (g : β → Option ι) (v : β → α) (l : List β) (hl : l.Nodup) (x : ι → α) (i : ι) (n₀ : β)
    (hn₀ : n₀ ∈ l) (hg : g n₀ = some i) (huniq : ∀ n ∈ l, g n = some i → n = n₀) :
    l.foldl (step g (fun _ b => b) v) x i = v n₀ := by
  induction l generalizing x with
  | nil => exact absurd hn₀ List.not_mem_nil
  | cons a t ih =>
    rw [List.foldl_cons]
    have hnd := List.nodup_cons.1 hl
    by_cases ha : a = n₀
    · subst ha
      rw [foldl_of_miss g _ v t _ i (fun n hn e => hnd.1 (by
        have := huniq n (List.mem_cons_of_mem _ hn) e; rw [← this]; exact hn))]
      exact step_set_of_eq g v x a i hg
    · have hmem : n₀ ∈ t := by
        rcases List.mem_cons.1 hn₀ with e | e
        · exact absurd e.symm ha
        · exact e
      exact ih hnd.2 _ hmem (fun n hn e => huniq n (List.mem_cons_of_mem _ hn) e)

end Fold

section Scatter

variable {α : Type} {s si u : Shape} {w : Nat}

/-- The scatter is the fold of `step` over the update positions. -/
theorem scatter_eq_foldl (d : ScatterDims s si u) (f : α → α → α) (x : s.Idx → α) (idx : IVec si w) (upd : u.Idx → α) :
    Host.scatter d f x idx upd
      = (List.finRange u.numel).foldl
          (step (fun n => d.resultIdx? (u.rowMajor.symm n) idx) f (fun n => upd (u.rowMajor.symm n))) x := by
  unfold Host.scatter
  refine congrArg (fun F => List.foldl F x (List.finRange u.numel)) ?_
  funext r n
  unfold step
  dsimp only
  cases d.resultIdx? (u.rowMajor.symm n) idx <;> rfl

/-- An element no update lands on keeps the operand's value. -/
theorem scatter_of_miss (d : ScatterDims s si u) (f : α → α → α) (x : s.Idx → α) (idx : IVec si w) (upd : u.Idx → α)
    (i : s.Idx) (h : ∀ j : u.Idx, d.resultIdx? j idx ≠ some i) : Host.scatter d f x idx upd i = x i := by
  rw [scatter_eq_foldl]
  exact foldl_of_miss _ f _ _ x i (fun n _ => h _)

/-- An element exactly one update `j₀` lands on holds that update, when the body returns the update. -/
theorem scatter_set_of_unique (d : ScatterDims s si u) (x : s.Idx → α) (idx : IVec si w) (upd : u.Idx → α)
    (i : s.Idx) (j₀ : u.Idx) (hj₀ : d.resultIdx? j₀ idx = some i)
    (huniq : ∀ j : u.Idx, d.resultIdx? j idx = some i → j = j₀) :
    Host.scatter d (fun _ b => b) x idx upd i = upd j₀ := by
  rw [scatter_eq_foldl]
  have := foldl_set_of_unique (fun n => d.resultIdx? (u.rowMajor.symm n) idx) (fun n => upd (u.rowMajor.symm n))
    (List.finRange u.numel) (List.nodup_finRange _) x i (u.rowMajor j₀) (List.mem_finRange _)
    (by simp only [Equiv.symm_apply_apply]; exact hj₀)
    (fun n _ e => by
      have := huniq _ e
      rw [← this, Equiv.apply_symm_apply])
  rw [this, Equiv.symm_apply_apply]

/-- An update lands on `i` exactly when, on every axis, its start plus its window coordinate is `i`'s coordinate
    (the in-bounds test is then `i`'s own bound). -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro e a
      have e' := Option.some.inj e
      have hv := congrArg Fin.val (congrFun e' a)
      have h0 := (h a).1
      simp only at hv
      omega
    · intro e
      refine congrArg some (funext fun a => Fin.ext ?_)
      show (d.start j idx a + (d.window j a : Int)).toNat = (i a).val
      have := e a
      omega
  · rename_i h
    constructor
    · intro e
      exact absurd e (by simp)
    · intro e
      exfalso
      apply h
      intro a
      have := e a
      have := (i a).isLt
      omega

end Scatter

end Cert.ScatterSet
-- ==== Proof.LibCountWindow.lean ====
/-
  A running count written as a windowed sum of 32-bit words (`jnp.cumsum` of a 0/1 vector).

  `Host.reduceWindow IntOp.addi ![n] ![1] ![n - 1] ![0] x init` at position `j` folds word addition over the `n`
  positions `j, j + 1, …, j + n - 1` of the operand padded with `n - 1` initial values in front: the operand's
  entries `0 … j`, and the initial value elsewhere. When every word is 0 or 1 and the initial value is 0, no
  addition wraps (there are fewer than 2³² of them), so the result, as a number, is at most the window's length,
  and it is at least 1 when the entry at `j` itself is 1 (that entry is the window's last position).
-/
import Idealize.ShloMosaic.PureOps
import Idealize.ShloMosaic.Lib.ValueIdx

namespace Cert.CountWindow

open Idealize.ShloMosaic

section Fold

variable {β : Type}

/-- Adding words that are 0 or 1, fewer than 2³² of them: nothing wraps, the total grows and stays within the count. -/
theorem foldl_addi_bounds (g : β → BitVec 32) (hg : ∀ n, (g n).toNat ≤ 1) (l : List β) (acc : BitVec 32)
    (h : acc.toNat + l.length < 2 ^ 32) :
    acc.toNat ≤ (l.foldl (fun r n => IntOp.addi r (g n)) acc).toNat
      ∧ (l.foldl (fun r n => IntOp.addi r (g n)) acc).toNat ≤ acc.toNat + l.length := by
  induction l generalizing acc with
  | nil => exact ⟨Nat.le_refl _, Nat.le_refl _⟩
  | cons a t ih =>
    rw [List.foldl_cons]
    have h1 := hg a
    have hlen : (a :: t).length = t.length + 1 := rfl
    have hadd : (IntOp.addi acc (g a)).toNat = acc.toNat + (g a).toNat := by
      unfold IntOp.addi
      rw [BitVec.toNat_add, Nat.mod_eq_of_lt (by omega)]
    have := ih (IntOp.addi acc (g a)) (by rw [hadd]; omega)
    rw [hadd] at this
    constructor <;> omega

/-- … and a word equal to 1 among them makes the total at least one more than the start. -/
theorem foldl_addi_pos (g : β → BitVec 32) (hg : ∀ n, (g n).toNat ≤ 1) (l : List β) (acc : BitVec 32)
    (h : acc.toNat + l.length < 2 ^ 32) (n₀ : β) (hn₀ : n₀ ∈ l) (h1 : (g n₀).toNat = 1) :
    acc.toNat + 1 ≤ (l.foldl (fun r n => IntOp.addi r (g n)) acc).toNat := by
  induction l generalizing acc with
  | nil => exact absurd hn₀ List.not_mem_nil
  | cons a t ih =>
    rw [List.foldl_cons]
    have ha := hg a
    have hlen : (a :: t).length = t.length + 1 := rfl
    have hadd : (IntOp.addi acc (g a)).toNat = acc.toNat + (g a).toNat := by
      unfold IntOp.addi
      rw [BitVec.toNat_add, Nat.mod_eq_of_lt (by omega)]
    rcases List.mem_cons.1 hn₀ with e | e
    · subst e
      have := (foldl_addi_bounds g hg t (IntOp.addi acc (g n₀)) (by rw [hadd]; omega)).1
      rw [hadd] at this
      omega
    · have := ih (IntOp.addi acc (g a)) (by rw [hadd]; omega) e
      rw [hadd] at this
      omega

end Fold

abbrev S_ : Shape := ⟨0, ![]⟩
abbrev S12288 : Shape := ⟨1, ![12288]⟩

/-- The running count over 12288 words that are 0 or 1, from 0: at most 12288 everywhere. -/
theorem count_le (x : IVec S12288 32) (hx : ∀ i, (x i).toNat ≤ 1) (init : IVec S_ 32) (hinit : ∀ i, init i = 0#32)
    (h : S12288.ReduceWindows (![12288] : Fin 1 → Nat) ![1] ![12287] ![0] S12288) (hu : 0 < S_.numel) (j : S12288.Idx) :
    (Host.reduceWindow IntOp.addi ![12288] ![1] ![12287] ![0] x init h hu j).toNat ≤ 12288 := by
  unfold Host.reduceWindow
  dsimp only
  rw [hinit]
  refine (foldl_addi_bounds _ (fun n => ?_) _ 0#32 ?_).2.trans ?_
  · split
    · exact hx _
    · exact Nat.zero_le _
  · rw [List.length_finRange]; decide
  · rw [List.length_finRange]; decide

/-- … and at least 1 where the word itself is 1. -/
theorem one_le_count (x : IVec S12288 32) (hx : ∀ i, (x i).toNat ≤ 1) (init : IVec S_ 32) (hinit : ∀ i, init i = 0#32)
    (h : S12288.ReduceWindows (![12288] : Fin 1 → Nat) ![1] ![12287] ![0] S12288) (hu : 0 < S_.numel) (j : S12288.Idx)
    (hj : (x j).toNat = 1) :
    1 ≤ (Host.reduceWindow IntOp.addi ![12288] ![1] ![12287] ![0] x init h hu j).toNat := by
  unfold Host.reduceWindow
  dsimp only
  rw [hinit]
  have key := foldl_addi_pos
    (fun n : Fin (⟨1, ![12288]⟩ : Shape).numel =>
      if hin : ∀ a : Fin 1, (![12287] : Fin 1 → Nat) a ≤ (j (a.cast h.1.symm)).val * (![1] : Fin 1 → Nat) a + ((⟨1, ![12288]⟩ : Shape).rowMajor.symm n a).val
          ∧ (j (a.cast h.1.symm)).val * (![1] : Fin 1 → Nat) a + ((⟨1, ![12288]⟩ : Shape).rowMajor.symm n a).val - (![12287] : Fin 1 → Nat) a < S12288.size a
      then x (fun a => ⟨(j (a.cast h.1.symm)).val * (![1] : Fin 1 → Nat) a + ((⟨1, ![12288]⟩ : Shape).rowMajor.symm n a).val - (![12287] : Fin 1 → Nat) a, (hin a).2⟩)
      else 0#32)
    (fun n => by
      dsimp only
      split
      · exact hx _
      · exact Nat.zero_le _)
    (List.finRange (⟨1, ![12288]⟩ : Shape).numel) 0#32 (by rw [List.length_finRange]; decide)
    ((⟨1, ![12288]⟩ : Shape).rowMajor (ValueIdx.ix1 (⟨12287, by decide⟩ : Fin 12288))) (List.mem_finRange _)
    (by
      dsimp only
      rw [Equiv.symm_apply_apply]
      have hin : ∀ a : Fin 1, (![12287] : Fin 1 → Nat) a ≤ (j (a.cast h.1.symm)).val * (![1] : Fin 1 → Nat) a + ((ValueIdx.ix1 (⟨12287, by decide⟩ : Fin 12288) : (⟨1, ![12288]⟩ : Shape).Idx) a).val
          ∧ (j (a.cast h.1.symm)).val * (![1] : Fin 1 → Nat) a + ((ValueIdx.ix1 (⟨12287, by decide⟩ : Fin 12288) : (⟨1, ![12288]⟩ : Shape).Idx) a).val - (![12287] : Fin 1 → Nat) a < S12288.size a := by
        intro a
        match a with
        | ⟨0, _⟩ =>
          have := (j 0).isLt
          show 12287 ≤ (j 0).val * 1 + 12287 ∧ (j 0).val * 1 + 12287 - 12287 < 12288
          constructor
          · omega
          · have : (j 0).val < 12288 := (j 0).isLt
            omega
      rw [dif_pos hin]
      have : (fun a => (⟨(j (a.cast h.1.symm)).val * (![1] : Fin 1 → Nat) a + ((ValueIdx.ix1 (⟨12287, by decide⟩ : Fin 12288) : (⟨1, ![12288]⟩ : Shape).Idx) a).val - (![12287] : Fin 1 → Nat) a, (hin a).2⟩ : Fin (S12288.size a))) = j := by
        funext a
        match a with
        | ⟨0, _⟩ =>
          apply Fin.ext
          show (j 0).val * 1 + 12287 - 12287 = (j 0).val
          omega
      rw [this]
      exact hj)
  exact key

end Cert.CountWindow
-- ==== Proof.SpecLaws.lean ====
/-
  The two descriptions of the table agree, and the rows named by the running count lie in [1, N + 1].

  * Rows.  Where the mask holds at column j the running count there is at least 1 (the column counts itself) and
    at most N; elsewhere the row is N + 1.  So a row word is never 0, never "negative" as a signed word, and is
    a row of the table exactly when it is at most N.
  * The first scatter writes the center into row 0: update k lands on (0, k), one update per entry of row 0.
  * The second scatter writes the coefficient of column k at (row k, k) when row k ≤ N and drops it otherwise:
    the index words are not negative, so the "count from the end" wrapping leaves them alone; distinct updates
    land in distinct columns, so an entry meets at most one update.
  * Hence entry (r, c) of the scattered table is: the coefficient of c when row c = r; else the center of c when
    r = 0; else zero.  Row words being at least 1, row 0 meets no coefficient, and the tests "row c = r as numbers"
    and "row c = r as 32-bit words" coincide (r < 2³²): this is the table built by comparing a row counter with
    the row words.
-/
import proofs.«120351_j46454366273939_1_alg».proof.Proof.Spec
import proofs.«120351_j46454366273939_1_alg».proof.Proof.LibScatterSet
import proofs.«120351_j46454366273939_1_alg».proof.Proof.LibCountWindow
import Idealize.ShloMosaic.Lib.Pipeline.Value

noncomputable section

namespace Cert.Zono

open Idealize.ShloMosaic ValueIdx

variable {F : FTy → Type} [FloatOps F]

/-! ## The row words -/

/-- The mask, widened to 32 bits, is a vector of zeros and ones. -/
theorem mask_word_le (x : FVec F S3x64x64 .f32) (i : S12288.Idx) : ((extui 32 (mask x) (by decide)) i).toNat ≤ 1 := by
  show ((mask x i).setWidth 32).toNat ≤ 1
  rw [BitVec.toNat_setWidth]
  have := (mask x i).isLt
  omega

/-- Every row word is between 1 and N + 1. -/
theorem row_bounds (x : FVec F S3x64x64 .f32) (j : S12288.Idx) : 1 ≤ (row x j).toNat ∧ (row x j).toNat ≤ 12289 := by
  show 1 ≤ (Scalar.select (mask x j) (csum x j) (12289#32)).toNat
    ∧ (Scalar.select (mask x j) (csum x j) (12289#32)).toNat ≤ 12289
  unfold Scalar.select
  split
  · rename_i hm
    have hj : ((extui 32 (mask x) (by decide)) j).toNat = 1 := by
      show ((mask x j).setWidth 32).toNat = 1
      rw [hm]; decide
    exact ⟨CountWindow.one_le_count _ (mask_word_le x) _ (fun _ => rfl) _ _ j hj,
      (CountWindow.count_le _ (mask_word_le x) _ (fun _ => rfl) _ _ j).trans (by decide)⟩
  · decide

/-! ## Words as indices -/

/-- A word below 2³¹ read as a signed integer is its unsigned value. -/
theorem toInt_of_lt (a : BitVec 32) (h : a.toNat < 2 ^ 31) : a.toInt = (a.toNat : Int) := by
  rw [BitVec.toInt_eq_toNat_cond]
  split
  · rfl
  · omega

/-- Counting from the end leaves a non-negative index word alone. -/
theorem wrapIdx_of_lt (n : BitVec 32) (v : IVec S12288 32) (k : S12288.Idx) (h : (v k).toNat < 2 ^ 31) :
    wrapIdx n v k = v k := by
  have hs : (v k).slt 0#32 = false := by
    unfold BitVec.slt
    rw [toInt_of_lt _ h]
    simp
  have hc : IntOp.cmpi .slt (v k) 0#32 = 0#1 := by
    show BitVec.ofBool ((v k).slt 0#32) = 0#1
    rw [hs]; rfl
  show Scalar.select (IntOp.cmpi .slt (v k) 0#32) (IntOp.addi (v k) n) (v k) = v k
  rw [hc]; rfl

/-! ## The index pairs -/

/-- Component 0 of the k-th index pair. -/
theorem idxPair_left (a b : IVec S12288 32) (hcat : Shape.Concatenates [S12288x1, S12288x1] S12288x2 1)
    (hb : S12288.BroadcastsInDim S12288x1 (![0] : Fin 1 → Fin S12288x1.rank))
    (k : S12288x2.Idx) (kk : S12288.Idx) (h1 : (k 1).val = 0) (hk : (kk 0).val = (k 0).val) :
    concatenate S12288x2 1 [⟨S12288x1, broadcastInDim S12288x1 ![0] hb a⟩, ⟨S12288x1, broadcastInDim S12288x1 ![0] hb b⟩] hcat k
      = a kk := by
  have hk0 : (k 0).val < 12288 := idx2_lt0 k
  rw [concatenate_pair_apply_left (t := S12288x2) (s₁ := S12288x1) (s₂ := S12288x1) (1 : Fin 2) _ _ hcat k rfl
    (ix2 (⟨(k 0).val, hk0⟩ : Fin 12288) (0 : Fin 1) : S12288x1.Idx)
    (fun b => by
      match b with
      | ⟨0, _⟩ => rfl
      | ⟨1, _⟩ => exact h1.symm)]
  exact broadcastInDim_apply _ hb a _ kk (fun a' => by
    match a' with
    | ⟨0, _⟩ => exact hk)

/-- Component 1 of the k-th index pair. -/
theorem idxPair_right (a b : IVec S12288 32) (hcat : Shape.Concatenates [S12288x1, S12288x1] S12288x2 1)
    (hb : S12288.BroadcastsInDim S12288x1 (![0] : Fin 1 → Fin S12288x1.rank))
    (k : S12288x2.Idx) (kk : S12288.Idx) (h1 : (k 1).val = 1) (hk : (kk 0).val = (k 0).val) :
    concatenate S12288x2 1 [⟨S12288x1, broadcastInDim S12288x1 ![0] hb a⟩, ⟨S12288x1, broadcastInDim S12288x1 ![0] hb b⟩] hcat k
      = b kk := by
  have hk0 : (k 0).val < 12288 := idx2_lt0 k
  rw [concatenate_pair_apply_right (t := S12288x2) (s₁ := S12288x1) (s₂ := S12288x1) (1 : Fin 2) _ _ hcat k rfl rfl
    (ix2 (⟨(k 0).val, hk0⟩ : Fin 12288) (0 : Fin 1) : S12288x1.Idx)
    (fun b hne => by
      match b with
      | ⟨0, _⟩ => rfl
      | ⟨1, _⟩ => exact absurd rfl hne)
    (by show 0 + 1 = (k 1).val; omega)]
  exact broadcastInDim_apply _ hb b _ kk (fun a' => by
    match a' with
    | ⟨0, _⟩ => exact hk)

/-! ## Where the updates land -/

theorem scatRow_sum0 (j : S12288.Idx) (idx : IVec S1 32) (hidx : ∀ k, idx k = 0#32) :
    scatRow.start j idx 0 + (scatRow.window j 0 : Int) = 0 := by
  obtain ⟨k, hk⟩ : ∃ k, scatRow.start j idx 0 = (idx k).toInt := ⟨_, rfl⟩
  rw [hk, hidx]
  rfl

theorem scatRow_sum1 (j : S12288.Idx) (idx : IVec S1 32) :
    scatRow.start j idx 1 + (scatRow.window j 1 : Int) = ((j 0).val : Int) := by
  show (0 : Int) + (((j 0).val : Nat) : Int) = ((j 0).val : Int)
  omega

/-- Update j of the row scatter lands on (0, j). -/
theorem scatRow_lands (j : S12288.Idx) (idx : IVec S1 32) (hidx : ∀ k, idx k = 0#32) (i : S12289x12288.Idx) :
    scatRow.resultIdx? j idx = some i ↔ (i 0).val = 0 ∧ (j 0).val = (i 1).val := by
  rw [ScatterSet.resultIdx?_eq_some_iff]
  constructor
  · intro h
    have h0 := h 0
    have h1 := h 1
    rw [scatRow_sum0 j idx hidx] at h0
    rw [scatRow_sum1 j idx] at h1
    constructor <;> omega
  · rintro ⟨h0, h1⟩ a
    match a with
    | ⟨0, _⟩ =>
      show scatRow.start j idx 0 + (scatRow.window j 0 : Int) = ((i 0).val : Int)
      rw [scatRow_sum0 j idx hidx]; omega
    | ⟨1, _⟩ =>
      show scatRow.start j idx 1 + (scatRow.window j 1 : Int) = ((i 1).val : Int)
      rw [scatRow_sum1 j idx]; omega

theorem scatCell_sum0 (j : S12288.Idx) (idx : IVec S12288x2 32) :
    ∃ k : S12288x2.Idx, scatCell.start j idx 0 + (scatCell.window j 0 : Int) = (idx k).toInt
      ∧ (k 0).val = (j 0).val ∧ (k 1).val = 0 := by
  obtain ⟨k, hk, h0, h1⟩ : ∃ k : S12288x2.Idx, scatCell.start j idx 0 = (idx k).toInt
      ∧ (k 0).val = (j 0).val ∧ (k 1).val = 0 := ⟨_, rfl, rfl, rfl⟩
  refine ⟨k, ?_, h0, h1⟩
  rw [← hk]
  show scatCell.start j idx 0 + ((0 : Nat) : Int) = scatCell.start j idx 0
  omega

theorem scatCell_sum1 (j : S12288.Idx) (idx : IVec S12288x2 32) :
    ∃ k : S12288x2.Idx, scatCell.start j idx 1 + (scatCell.window j 1 : Int) = (idx k).toInt
      ∧ (k 0).val = (j 0).val ∧ (k 1).val = 1 := by
  obtain ⟨k, hk, h0, h1⟩ : ∃ k : S12288x2.Idx, scatCell.start j idx 1 = (idx k).toInt
      ∧ (k 0).val = (j 0).val ∧ (k 1).val = 1 := ⟨_, rfl, rfl, rfl⟩
  refine ⟨k, ?_, h0, h1⟩
  rw [← hk]
  show scatCell.start j idx 1 + ((0 : Nat) : Int) = scatCell.start j idx 1
  omega

/-- Update j of the entry scatter lands on (row j, j), when the row words are not negative. -/
theorem scatCell_lands (rw : IVec S12288 32) (hrw : ∀ k, (rw k).toNat < 2 ^ 31)
    (hcat : Shape.Concatenates [S12288x1, S12288x1] S12288x2 1)
    (hb : S12288.BroadcastsInDim S12288x1 (![0] : Fin 1 → Fin S12288x1.rank))
    (j : S12288.Idx) (i : S12289x12288.Idx) :
    scatCell.resultIdx? j
        (concatenate S12288x2 1
          [⟨S12288x1, broadcastInDim S12288x1 ![0] hb (wrapIdx 12289#32 rw)⟩,
           ⟨S12288x1, broadcastInDim S12288x1 ![0] hb (wrapIdx 12288#32 (iotaInDim S12288 32 0))⟩] hcat) = some i
      ↔ (rw j).toNat = (i 0).val ∧ (j 0).val = (i 1).val := by
  rw [ScatterSet.resultIdx?_eq_some_iff]
  obtain ⟨k0, e0, k00, k01⟩ := scatCell_sum0 j (concatenate S12288x2 1
          [⟨S12288x1, broadcastInDim S12288x1 ![0] hb (wrapIdx 12289#32 rw)⟩,
           ⟨S12288x1, broadcastInDim S12288x1 ![0] hb (wrapIdx 12288#32 (iotaInDim S12288 32 0))⟩] hcat)
  obtain ⟨k1, e1, k10, k11⟩ := scatCell_sum1 j (concatenate S12288x2 1
          [⟨S12288x1, broadcastInDim S12288x1 ![0] hb (wrapIdx 12289#32 rw)⟩,
           ⟨S12288x1, broadcastInDim S12288x1 ![0] hb (wrapIdx 12288#32 (iotaInDim S12288 32 0))⟩] hcat)
  rw [idxPair_left _ _ hcat hb k0 j k01 k00.symm, wrapIdx_of_lt _ _ _ (hrw j), toInt_of_lt _ (hrw j)] at e0
  have hj : (j 0).val < 12288 := (j 0).isLt
  have hiota : (iotaInDim S12288 32 0 j).toNat = (j 0).val := by
    show (BitVec.ofNat 32 (j 0).val).toNat = (j 0).val
    rw [BitVec.toNat_ofNat]
    exact Nat.mod_eq_of_lt (by omega)
  rw [idxPair_right _ _ hcat hb k1 j k11 k10.symm, wrapIdx_of_lt _ _ _ (by rw [hiota]; omega),
    toInt_of_lt _ (by rw [hiota]; omega), hiota] at e1
  constructor
  · intro h
    have h0 := h 0
    have h1 := h 1
    rw [e0] at h0
    rw [e1] at h1
    constructor <;> omega
  · rintro ⟨h0, h1⟩ a
    match a with
    | ⟨0, _⟩ =>
      show scatCell.start j _ 0 + (scatCell.window j 0 : Int) = ((i 0).val : Int)
      rw [e0]; omega
    | ⟨1, _⟩ =>
      show scatCell.start j _ 1 + (scatCell.window j 1 : Int) = ((i 1).val : Int)
      rw [e1]; omega

/-- An index of a vector of N entries is determined by its coordinate. -/
theorem idx1_ext (j j' : S12288.Idx) (h : (j 0).val = (j' 0).val) : j = j' := by
  funext d
  match d with
  | ⟨0, _⟩ => exact Fin.ext h

/-! ## The two scatters at an entry -/

/-- The row scatter: the new row in row 0, the operand elsewhere. -/
theorem rowScatter_apply (T : FVec F S12289x12288 .f32) (idx : IVec S1 32) (hidx : ∀ k, idx k = 0#32)
    (cf : FVec F S12288 .f32) (i : S12289x12288.Idx) :
    Host.scatter scatRow (fun _ b => b) T idx cf i = if (i 0).val = 0 then cf (ix1 (i 1)) else T i := by
  by_cases h0 : (i 0).val = 0
  · rw [if_pos h0]
    exact ScatterSet.scatter_set_of_unique scatRow T idx cf i (ix1 (i 1))
      ((scatRow_lands _ idx hidx i).2 ⟨h0, rfl⟩)
      (fun j hj => idx1_ext _ _ ((scatRow_lands j idx hidx i).1 hj).2)
  · rw [if_neg h0]
    exact ScatterSet.scatter_of_miss scatRow _ T idx cf i (fun j hj => h0 ((scatRow_lands j idx hidx i).1 hj).1)

/-- The entry scatter: column c's coefficient at (row c, c), the operand elsewhere. -/
theorem cellScatter_apply (T : FVec F S12289x12288 .f32) (rw : IVec S12288 32) (hrw : ∀ k, (rw k).toNat < 2 ^ 31)
    (hcat : Shape.Concatenates [S12288x1, S12288x1] S12288x2 1)
    (hb : S12288.BroadcastsInDim S12288x1 (![0] : Fin 1 → Fin S12288x1.rank))
    (ef : FVec F S12288 .f32) (i : S12289x12288.Idx) :
    Host.scatter scatCell (fun _ b => b) T
        (concatenate S12288x2 1
          [⟨S12288x1, broadcastInDim S12288x1 ![0] hb (wrapIdx 12289#32 rw)⟩,
           ⟨S12288x1, broadcastInDim S12288x1 ![0] hb (wrapIdx 12288#32 (iotaInDim S12288 32 0))⟩] hcat) ef i
      = if (rw (ix1 (i 1))).toNat = (i 0).val then ef (ix1 (i 1)) else T i := by
  by_cases hit : (rw (ix1 (i 1))).toNat = (i 0).val
  · rw [if_pos hit]
    exact ScatterSet.scatter_set_of_unique scatCell T _ ef i (ix1 (i 1))
      ((scatCell_lands rw hrw hcat hb _ i).2 ⟨hit, rfl⟩)
      (fun j hj => idx1_ext _ _ ((scatCell_lands rw hrw hcat hb j i).1 hj).2)
  · rw [if_neg hit]
    refine ScatterSet.scatter_of_miss scatCell _ T _ ef i (fun j hj => hit ?_)
    have := (scatCell_lands rw hrw hcat hb j i).1 hj
    rw [← idx1_ext j (ix1 (i 1)) this.2]
    exact this.1

/-! ## The scattered table is the compared table -/

/-- Entry (r, c) of the scattered table: the coefficient of c when row c = r; else the center of c in row 0; else zero. -/
theorem scatTable_apply (cf ef : FVec F S12288 .f32) (rw : IVec S12288 32) (hrw : ∀ k, (rw k).toNat < 2 ^ 31)
    (i : S12289x12288.Idx) :
    scatTable cf ef rw i
      = if (rw (ix1 (i 1))).toNat = (i 0).val then ef (ix1 (i 1))
        else if (i 0).val = 0 then cf (ix1 (i 1)) else FloatOps.ofBits .f32 0x00000000#32 := by
  unfold scatTable
  refine (cellScatter_apply _ rw hrw _ _ ef i).trans ?_
  by_cases hit : (rw (ix1 (i 1))).toNat = (i 0).val
  · exact (if_pos hit).trans (if_pos hit).symm
  · refine (if_neg hit).trans (Eq.trans ?_ (if_neg hit).symm)
    exact rowScatter_apply _ _ (fun _ => rfl) cf i

/-- With every row word in [1, N + 1], the table written by the two scatters is the table of the comparisons. -/
theorem scatTable_eq_table (cf ef : FVec F S12288 .f32) (rw : IVec S12288 32)
    (hrw : ∀ k, 1 ≤ (rw k).toNat ∧ (rw k).toNat ≤ 12289) : scatTable cf ef rw = table cf ef rw := by
  funext i
  refine (scatTable_apply cf ef rw (fun k => by have := (hrw k).2; omega) i).trans ?_
  have h1 := hrw (ix1 (i 1))
  have hi0 : (i 0).val < 12289 := idx2_lt0 i
  by_cases h0 : (i 0).val = 0
  · exact ((if_neg (by omega)).trans (if_pos h0)).trans (if_pos h0).symm
  · by_cases hit : (rw (ix1 (i 1))).toNat = (i 0).val
    · have hw : BitVec.ofNat 32 (i 0).val = rw (ix1 (i 1)) := by
        apply BitVec.eq_of_toNat_eq
        rw [BitVec.toNat_ofNat, hit]
        exact Nat.mod_eq_of_lt (by omega)
      exact (if_pos hit).trans ((if_neg h0).trans (if_pos hw)).symm
    · have hw : ¬ BitVec.ofNat 32 (i 0).val = rw (ix1 (i 1)) := by
        intro e
        apply hit
        rw [← e, BitVec.toNat_ofNat]
        exact Nat.mod_eq_of_lt (by omega)
      exact ((if_neg hit).trans (if_neg h0)).trans ((if_neg h0).trans (if_neg hw)).symm

/-- The table of an image, either way. -/
theorem scatTable_row (x : FVec F S3x64x64 .f32) :
    scatTable (centerFlat x) (errFlat x) (row x) = table (centerFlat x) (errFlat x) (row x) :=
  scatTable_eq_table _ _ _ (row_bounds x)

end Cert.Zono

end
-- ==== Proof.lean ====
/-
  The zonotope table, tile by tile, is the zonotope table, scattered: the proof of `Cert.Claim`.

  Both programs compute, by the same host operations, the center, the error coefficients, the mask of the
  non-negative coefficients, the running count of the mask and from it a row word per column (N + 1 where the
  mask fails). The kernel then fills an (N + 1) × N table tile by tile: an entry holds the center in row 0, the
  column's coefficient where the row counter equals the column's row word, and zero elsewhere. The reference
  scatters the center into row 0 of a table of zeros and then each coefficient at (row word, column), dropping
  the updates whose row is N + 1.

  They agree because every row word lies in [1, N + 1] (the running count at a column where the mask holds counts
  that column; it never exceeds N): no coefficient lands in row 0, the "count from the end" wrapping of the
  scatter's indices never applies, each entry meets at most one update (updates sit in distinct columns), and
  equality of a row counter below 2³² with a row word is equality of numbers (SpecLaws). No float arithmetic is
  compared: both sides apply the same operations to the same input, so the precondition is never opened.

  The pieces: the kernel's result arrays as functions of the input (KernelHostValues … KernelRun, over the frame of
  KernelIdealFrameP), the reference's run and its result terms (RefRun, RefValue), the pure laws (Spec, SpecLaws),
  and the three frames. The idealization rewrote nothing, so `preserves` is `True`.
-/
import proofs.«120351_j46454366273939_1_alg».proof.Defs
import proofs.«120351_j46454366273939_1_alg».proof.Proof.Gen.Kernel
import proofs.«120351_j46454366273939_1_alg».proof.Proof.Gen.KernelIdeal
import proofs.«120351_j46454366273939_1_alg».proof.Proof.Gen.ReferenceIdeal
import proofs.«120351_j46454366273939_1_alg».proof.Proof.Gen.Pre_finite_inputs
import proofs.«120351_j46454366273939_1_alg».proof.Proof.KernelFrameP
import proofs.«120351_j46454366273939_1_alg».proof.Proof.KernelIdealFrameP
import proofs.«120351_j46454366273939_1_alg».proof.Proof.KernelRun
import proofs.«120351_j46454366273939_1_alg».proof.Proof.RefValue
import proofs.«120351_j46454366273939_1_alg».proof.Proof.SpecLaws
import Idealize.ShloMosaic.Adequacy
import Idealize.ShloMosaic.Init

noncomputable section

namespace Cert.Proof

open Idealize.ShloMosaic Idealize.SL.Sem

/-- The word-level kernel runs and leaves its argument as it was. -/
theorem frame_kernel : Cert.frame_Kernel := fun m ρ _ => Cert.Kernel.GenP.frame m ρ

/-- So does the idealized kernel. -/
theorem frame_kernelIdeal : Cert.frame_KernelIdeal := fun m ρ _ => Cert.KernelIdeal.GenP.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.ZonoRun.run (F := Ideal) m ρ)

/-- Both programs end with the table of the image and its created terms. -/
theorem algebraic : Cert.algebraic_KernelIdeal_ReferenceIdeal := by
  intro m ρ m' ρ' _ hagree
  refine ⟨_, _, Cert.KernelIdeal.ZonoValue.run m ρ, ?_⟩
  refine (θ_run Cert.ReferenceIdeal.defs _ _).mono (fun _ h c => ⟨?_, ?_, (h c).2.2⟩)
    (Cert.ReferenceIdeal.ZonoRun.run (F := Ideal) m' ρ')
  · rw [(h c).1, hagree c, Cert.Zono.scatTable_row]
    rfl
  · rw [(h c).2.1, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
